-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩

abbrev nBuf : Space → Nat
  | .hbm => 88
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .i32⟩
  | .hbm, ⟨33, _⟩ => ⟨S_, .f32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x128, .bf16⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .bf16⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S128x128, .f32⟩
  | .hbm, ⟨62, _⟩ => ⟨S128x128, .f32⟩
  | .hbm, ⟨63, _⟩ => ⟨S1x128, .f32⟩
  | .hbm, ⟨64, _⟩ => ⟨S128x128, .bf16⟩
  | .hbm, ⟨65, _⟩ => ⟨S128x128, .bf16⟩
  | .hbm, ⟨66, _⟩ => ⟨S50000x128, .f32⟩
  | .hbm, ⟨67, _⟩ => ⟨S50000x128, .bf16⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .bf16⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S128x128, .f32⟩
  | .hbm, ⟨83, _⟩ => ⟨S128x128, .f32⟩
  | .hbm, ⟨84, _⟩ => ⟨S1x128, .f32⟩
  | .hbm, ⟨85, _⟩ => ⟨S128x128, .bf16⟩
  | .hbm, ⟨86, _⟩ => ⟨S128x128, .bf16⟩
  | .hbm, ⟨87, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1_0 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  gather_S800000_S800000x1_S800000_n_0_n_n_0_1_1_wf : GatherDims.WF S800000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S800000_S800000x1_S800000_n_0_n_n_0_1_1 : GatherDims S800000 S800000x1 S800000 where
  offsetDims := []
  collapsedSliceDims := [0]
  operandBatchingDims := []
  startIndicesBatchingDims := []
  startIndexMap := [0]
  indexVectorDim := 1
  sliceSizes := ![1]
  wf := gather_S800000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v39) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v57) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v61) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000, .f32⟩
  | .hbm, ⟨48, _⟩ => ⟨S50000x1, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S_, .f32⟩
  | .hbm, ⟨72, _⟩ => ⟨S800000, .f32⟩
  | .hbm, ⟨73, _⟩ => ⟨S_, .f32⟩
  | .hbm, ⟨74, _⟩ => ⟨S50000, .f32⟩
  | .hbm, ⟨75, _⟩ => ⟨S800000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S128x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S128x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000, .f32⟩
  | .hbm, ⟨94, _⟩ => ⟨S50000x1, .f32⟩
  | .hbm, ⟨95, _⟩ => ⟨S50000x1, .f32⟩
  | .hbm, ⟨96, _⟩ => ⟨S_, .f32⟩
  | .hbm, ⟨97, _⟩ => ⟨S50000x1, .f32⟩
  | .hbm, ⟨98, _⟩ => ⟨S50000x1, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call3_cst : Ref sig .tc := ⟨.hbm, 101, rfl⟩
abbrev main_call3_v0 : Ref sig .tc := ⟨.hbm, 102, rfl⟩
abbrev main_v69 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RunValue.lean ====
/-
  The run of the kernel program with its result named.

  The program is two launches of one dense kernel between stretches of host operations. Every weakly fair execution
  terminates, nothing faults, the eight argument arrays end as they started, and the result buffer ends at what the
  second launch's write-backs leave in it: the last link of a chain of buffer contents, one link per stretch and per
  launch, that starts at the launch memory. What that last link holds, as a function of the arguments, is read off
  the chain in the modules that follow.
-/
import proofs.«122687_j10582799417745_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the arguments as launched. -/
theorem run_main : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.EdgeCol.lean ====
/-
  The edge tables as the program with sorted edges reads them.

  From the `2 × 800000` table: the source row and the target row as vectors; the order that sorts the targets
  (the positions carried through a stable sort of the targets); a signed index vector read from the end when
  negative; a vector as a one-column array; and a table looked up at the sorting order.
-/
import proofs.«122687_j10582799417745_2_alg».proof.Proof.Gen.KernelIdeal

noncomputable section

namespace Cert.KernelIdeal.Edge

open Cert.KernelIdeal Cert.KernelIdeal.Facts₀ Cert.KernelIdeal.Facts Idealize.ShloMosaic

/-- The row of source words. -/
def srcT (tbl : IVec S2x800000 32) : IVec S800000 32 :=
  shapeCast S800000 (extractStridedSlice S1x800000 ![0, 0] tbl slices_S2x800000_S1x800000_0_0) shapeCasts_S1x800000_S800000

/-- The row of target words. -/
def dstT (tbl : IVec S2x800000 32) : IVec S800000 32 :=
  shapeCast S800000 (extractStridedSlice S1x800000 ![1, 0] tbl slices_S2x800000_S1x800000_1_0) shapeCasts_S1x800000_S800000

/-- The positions `0 … 799999` carried through a stable sort of the words `dst` by signed order. -/
def order (dst : IVec S800000 32) : IVec S800000 32 :=
  (Host.sort2 S800000 0 comparator_i32_i32_d0 dst (iotaInDim S800000 32 0)).2

/-- Each word read from the end of a list of `n` when negative. -/
def wrapVec (n : BitVec 32) (v : IVec S800000 32) : IVec S800000 32 :=
  select (cmpi .slt v (broadcastInDim S800000 ![] bcast_S_S800000 (constantI S_ 32 0#32)))
    (addi v (broadcastInDim S800000 ![] bcast_S_S800000 (constantI S_ 32 n))) v

/-- A vector as an `800000 × 1` column. -/
def col (v : IVec S800000 32) : IVec S800000x1 32 := broadcastInDim S800000x1 ![0] bcast_S800000_S800000x1_0 v

/-- The sorting order as an index column. -/
def orderCol (dst : IVec S800000 32) : IVec S800000x1 32 := col (wrapVec 800000#32 (order dst))

/-- A table of 800000 words looked up at the order that sorts `dst`. -/
def sorted (dst y : IVec S800000 32) : IVec S800000 32 :=
  Host.gather gather_S800000_S800000x1_S800000_n_0_n_n_0_1_1 y (orderCol dst)

end Cert.KernelIdeal.Edge

end
-- ==== Proof.KTerms.lean ====
/-
  The host side of the program with sorted edges, as functions of the argument arrays.

  Both edge tables are looked up at the order that sorts the targets. The number of edges that end at each node is
  the segment sum of ones over the sorted targets, and its floored reciprocal is stored as a column. The
  aggregated rows of an array `h` are the segment sum, over the sorted targets, of the rows of `h` the sorted
  sources name. A weight matrix is stored transposed, a bias as one row.
-/
import proofs.«122687_j10582799417745_2_alg».proof.Proof.EdgeCol
import Idealize.ShloMosaic.PureOps.Ideal

noncomputable section

namespace Cert.KernelIdeal.KT

open Cert.KernelIdeal Cert.KernelIdeal.Facts₀ Cert.KernelIdeal.Facts Idealize.ShloMosaic Cert.KernelIdeal.Edge

/-- The source words in sorted order. -/
def srcS (tbl : IVec S2x800000 32) : IVec S800000 32 := sorted (dstT tbl) (srcT tbl)
/-- The target words in sorted order. -/
def dstS (tbl : IVec S2x800000 32) : IVec S800000 32 := sorted (dstT tbl) (dstT tbl)

/-- How many edges end at each node: ones added into zeros at the sorted targets. -/
def cntK (tbl : IVec S2x800000 32) : FVec Ideal S50000 .f32 :=
  Host.scatterAdd scatter_S50000_S800000x1_S800000_n_0_0_1
    (broadcastInDim S50000 ![] bcast_S_S50000 (constant S_ .f32 0x00000000#32)) (col (dstS tbl))
    (broadcastInDim S800000 ![] bcast_S_S800000 (constant S_ .f32 0x3F800000#32))

/-- One over the count floored at one, as a column. -/
def invK (tbl : IVec S2x800000 32) : FVec Ideal S50000x1 .f32 :=
  shapeCast S50000x1 (Host.divf (broadcastInDim S50000 ![] bcast_S_S50000 (constant S_ .f32 0x3F800000#32))
    (maximumf (cntK tbl) (broadcastInDim S50000 ![] bcast_S_S50000 (constant S_ .f32 0x3F800000#32)))) shapeCasts_S50000_S50000x1

/-- The rows of `h` the sorted sources name, added into zeros at the sorted targets. -/
def aggK (tbl : IVec S2x800000 32) (h : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32)) (col (dstS tbl))
    (extf .f32 (Host.gather gather_S50000x128_S800000x1_S800000x128_1_0_n_n_0_1_1128 (truncf .bf16 h bitsLt_bf16_f32)
      (col (wrapVec 50000#32 (srcS tbl)))) bitsLt_bf16_f32)

/-- A weight matrix transposed (and stored narrow, which changes nothing on exact numbers). -/
def wT (W : FVec Ideal S128x128 .f32) : FVec Ideal S128x128 .bf16 :=
  truncf .bf16 (transpose S128x128 [1, 0] W transposes_S128x128_S128x128_1_0) bitsLt_bf16_f32

/-- A bias vector as one row. -/
def bRow (b : FVec Ideal S128 .f32) : FVec Ideal S1x128 .f32 := shapeCast S1x128 b shapeCasts_S128_S1x128

end Cert.KernelIdeal.KT

end
-- ==== Proof.Glue.lean ====
/-
  What each launch of the dense kernel finds in its operand buffers, as functions of the argument arrays.

  The first launch is entered after three stretches of host operations (the two table rows; the sort; the look-ups,
  segment sums, transposes and reshapes): its aggregated array is the segment sum over the sorted edges of the rows of
  the input array, its second operand the input array itself, its third the stored reciprocal column, then the two
  transposed weights and the bias row. The second launch is entered after one more stretch, which aggregates the first
  launch's result over the same sorted edges; the reciprocal column and the sorted tables are what they were.
-/
import proofs.«122687_j10582799417745_2_alg».proof.Proof.Gen.KernelIdeal.Frame
import proofs.«122687_j10582799417745_2_alg».proof.Proof.KTerms

set_option maxRecDepth 16384

noncomputable section

namespace Cert.KernelIdeal.Glue

open Cert.KernelIdeal Cert.KernelIdeal.Facts₀ Cert.KernelIdeal.Facts Cert.KernelIdeal.Gen
open Idealize.ShloMosaic Idealize.ShloMosaic.TcCoe Idealize.ShloMosaic.Tactic Idealize.ShloMosaic.StableHlo
open Idealize.SL Idealize.SL.Sem
open Cert.KernelIdeal.Edge Cert.KernelIdeal.KT

variable (m : (ℓ : Loc nD τ sig) → Buf (Elt Ideal) ℓ) (ρ : Dev nD → PrngReg) (c : Dev nD)

/-! ## The first launch's operands: the launch memory read through the three stretches before it -/

theorem g3_v39 : (V3 m ρ c main_v39 : S50000x128.Idx → EReal) = aggK (m ((c : Thread nD τ).loc main_arg1)) (m ((c : Thread nD τ).loc main_arg0)) := by
  show StableHlo.after hostOps0_2 (StableHlo.after hostOps0_1 (StableHlo.after hostOps0 (W0 m ρ c))) (Proc.devRef .tc main_v39) = _
  after_results_simp <;> rfl

theorem g3_arg0 : (V3 m ρ c main_arg0 : S50000x128.Idx → EReal) = (m ((c : Thread nD τ).loc main_arg0)) := by
  show StableHlo.after hostOps0_2 (StableHlo.after hostOps0_1 (StableHlo.after hostOps0 (W0 m ρ c))) (Proc.devRef .tc main_arg0) = _
  after_results_simp <;> rfl

theorem g3_v27 : (V3 m ρ c main_v27 : S50000x1.Idx → EReal) = invK (m ((c : Thread nD τ).loc main_arg1)) := by
  show StableHlo.after hostOps0_2 (StableHlo.after hostOps0_1 (StableHlo.after hostOps0 (W0 m ρ c))) (Proc.devRef .tc main_v27) = _
  after_results_simp <;> rfl

theorem g3_v43 : (V3 m ρ c main_v43 : S128x128.Idx → EReal) = wT (m ((c : Thread nD τ).loc main_arg2)) := by
  show StableHlo.after hostOps0_2 (StableHlo.after hostOps0_1 (StableHlo.after hostOps0 (W0 m ρ c))) (Proc.devRef .tc main_v43) = _
  after_results_simp <;> rfl

theorem g3_v44 : (V3 m ρ c main_v44 : S128x128.Idx → EReal) = wT (m ((c : Thread nD τ).loc main_arg4)) := by
  show StableHlo.after hostOps0_2 (StableHlo.after hostOps0_1 (StableHlo.after hostOps0 (W0 m ρ c))) (Proc.devRef .tc main_v44) = _
  after_results_simp <;> rfl

theorem g3_v42 : (V3 m ρ c main_v42 : S1x128.Idx → EReal) = bRow (m ((c : Thread nD τ).loc main_arg3)) := by
  show StableHlo.after hostOps0_2 (StableHlo.after hostOps0_1 (StableHlo.after hostOps0 (W0 m ρ c))) (Proc.devRef .tc main_v42) = _
  after_results_simp <;> rfl

/-- The sorted source words, as the first launch leaves them (it does not touch them). -/
theorem g4_v11 : (W4 m ρ c (Proc.devRef .tc main_v11) : S800000.Idx → BitVec 32) = srcS (m ((c : Thread nD τ).loc main_arg1)) := by
  rw [W4_of_ne m ρ c main_v11 (by decide)]
  show StableHlo.after hostOps0_2 (StableHlo.after hostOps0_1 (StableHlo.after hostOps0 (W0 m ρ c))) (Proc.devRef .tc main_v11) = _
  after_results_simp <;> rfl

/-- The sorted target words, likewise. -/
theorem g4_v18 : (W4 m ρ c (Proc.devRef .tc main_v18) : S800000.Idx → BitVec 32) = dstS (m ((c : Thread nD τ).loc main_arg1)) := by
  rw [W4_of_ne m ρ c main_v18 (by decide)]
  show StableHlo.after hostOps0_2 (StableHlo.after hostOps0_1 (StableHlo.after hostOps0 (W0 m ρ c))) (Proc.devRef .tc main_v18) = _
  after_results_simp <;> rfl

/-- The stored reciprocal column is an input of the first launch: it leaves it as it finds it. -/
theorem g4_v27 : (W4 m ρ c (Proc.devRef .tc main_v27) : S50000x1.Idx → EReal) = invK (m ((c : Thread nD τ).loc main_arg1)) :=
  ((W4_arr m ρ c 2).trans (((dat0 (V3 m ρ) c).arrAt_in 2 rfl _).trans (A_eq0 (V3 m ρ) c 2))).trans (g3_v27 m ρ c)

theorem g4_arg (b : Ref sig .tc) (hb : ∀ w, Pipeline.arrRef spec0 w ≠ b)
    (h3 : W3 m ρ c (Proc.devRef .tc b) = W0 m ρ c (Proc.devRef .tc b)) :
    W4 m ρ c (Proc.devRef .tc b) = W0 m ρ c (Proc.devRef .tc b) :=
  (W4_of_ne m ρ c b hb).trans h3

/-! ## The second launch's operands: the first launch's exit contents read through the stretch between them -/

theorem g5_v57 : (V5 m ρ c main_v57 : S50000x128.Idx → EReal) = aggK (m ((c : Thread nD τ).loc main_arg1)) (W4 m ρ c (Proc.devRef .tc main_v45)) := by
  show StableHlo.after hostOps1 (W4 m ρ c) (Proc.devRef .tc main_v57) = _
  after_results_simp
  rw [g4_v11 m ρ c, g4_v18 m ρ c]
  rfl

theorem g5_v45 : V5 m ρ c main_v45 = W4 m ρ c (Proc.devRef .tc main_v45) := by
  show StableHlo.after hostOps1 (W4 m ρ c) (Proc.devRef .tc main_v45) = _
  after_results_simp

theorem g5_v27 : (V5 m ρ c main_v27 : S50000x1.Idx → EReal) = invK (m ((c : Thread nD τ).loc main_arg1)) := by
  show StableHlo.after hostOps1 (W4 m ρ c) (Proc.devRef .tc main_v27) = _
  after_results_simp
  exact g4_v27 m ρ c

theorem g5_v61 : (V5 m ρ c main_v61 : S128x128.Idx → EReal) = wT (m ((c : Thread nD τ).loc main_arg5)) := by
  show StableHlo.after hostOps1 (W4 m ρ c) (Proc.devRef .tc main_v61) = _
  after_results_simp
  rw [W4_of_ne m ρ c main_arg5 (by decide)]
  show wT (StableHlo.after hostOps0_2 (StableHlo.after hostOps0_1 (StableHlo.after hostOps0 (W0 m ρ c))) (Proc.devRef .tc main_arg5)) = _
  after_results_simp <;> rfl

theorem g5_v62 : (V5 m ρ c main_v62 : S128x128.Idx → EReal) = wT (m ((c : Thread nD τ).loc main_arg7)) := by
  show StableHlo.after hostOps1 (W4 m ρ c) (Proc.devRef .tc main_v62) = _
  after_results_simp
  rw [W4_of_ne m ρ c main_arg7 (by decide)]
  show wT (StableHlo.after hostOps0_2 (StableHlo.after hostOps0_1 (StableHlo.after hostOps0 (W0 m ρ c))) (Proc.devRef .tc main_arg7)) = _
  after_results_simp <;> rfl

theorem g5_v60 : (V5 m ρ c main_v60 : S1x128.Idx → EReal) = bRow (m ((c : Thread nD τ).loc main_arg6)) := by
  show StableHlo.after hostOps1 (W4 m ρ c) (Proc.devRef .tc main_v60) = _
  after_results_simp
  rw [W4_of_ne m ρ c main_arg6 (by decide)]
  show bRow (StableHlo.after hostOps0_2 (StableHlo.after hostOps0_1 (StableHlo.after hostOps0 (W0 m ρ c))) (Proc.devRef .tc main_arg6)) = _
  after_results_simp <;> rfl

end Cert.KernelIdeal.Glue

end
-- ==== Proof.LibSegment.lean ====
/-
  Segment sums and row look-ups, read at an entry, for any sizes.

  A graph layer moves rows around by integer tables: a look-up takes row `idx[e]` of an array for every entry `e` of the
  table (the start index read as a signed integer and clamped into the array), and a segment sum adds update `e` into row
  `idx[e]` of an accumulator (the index read signed and NOT clamped: an update whose index is outside the array is
  dropped). Both are read here at one entry, for a table stored as an `M × 1` column: the look-up of a vector or of a
  matrix's rows is the operand at the clamped index, and the accumulated array at `c` is the old value plus the sum, over
  the table's entries `e` whose index is exactly `c`, of update `e`.
-/
import Idealize.ShloMosaic.Lib.ValueIdx
import Idealize.ShloMosaic.Lib.Pipeline.Value
import Idealize.ShloMosaic.PureOps.Ideal.Laws

noncomputable section

open scoped BigOperators

namespace Cert.Lib.Segment

open Idealize.ShloMosaic Idealize.ShloMosaic.ValueIdx

/-! ## Sums over a one-axis index set -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : ℕ} (f : (⟨1, ![n]⟩ : Shape).Idx → A) :
    ∑ i, f i = ∑ a : Fin n, f (ix1 a) := by
  rw [← Equiv.sum_comp (idxEquiv1 (n := n)).symm f]
  rfl

/-! ## One row of a table as a vector -/

/-- Row `r` of an `R × M` table, sliced out as a `1 × M` array and flattened, reads at `e` the table's entry `(r, e)`. -/
theorem tableRow_apply {α : Type} {R M : ℕ} (x : (⟨2, ![R, M]⟩ : Shape).Idx → α) (r : Fin R) (off : Fin 2 → ℕ)
    (h0 : off 0 = r.val) (h1 : off 1 = 0) (h : (⟨2, ![R, M]⟩ : Shape).Slices off ⟨2, ![1, M]⟩)
    (h' : (⟨2, ![1, M]⟩ : Shape).ShapeCasts ⟨1, ![M]⟩) (e : Fin M) :
    shapeCast ⟨1, ![M]⟩ (extractStridedSlice ⟨2, ![1, M]⟩ off x h) h' (ix1 e) = x (ix2 r e) := by
  rw [shapeCast_apply _ h' (ix1 e) (ix2 (0 : Fin 1) e) (by
    rw [Shape.rowMajor_val_two, Shape.rowMajor_val_one]
    show 0 * M + e.val = e.val
    omega)]
  refine extractStridedSlice_apply off x h _ _ fun a => ?_
  rcases (by decide : ∀ a : Fin 2, a = 0 ∨ a = 1) a with rfl | rfl
  · show r.val = off 0 + 0
    omega
  · show e.val = off 1 + e.val
    omega

/-! ## Where an update lands -/

/-- An update lands on the operand index `i` exactly when, on every axis, its start plus its window coordinate is
    `i`'s coordinate (a landing place outside the operand is no index at all). -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have e' := Option.some.inj e
      have := congrFun e' a
      rw [← this]
      show _ = (((d.start j idx a + (d.window j a : ℤ)).toNat : ℕ) : ℤ)
      rw [Int.toNat_of_nonneg (h a).1]
    · intro hi
      congr 1
      funext a
      refine Fin.ext ?_
      show (d.start j idx a + (d.window j a : ℤ)).toNat = (i a).val
      rw [hi a, Int.toNat_natCast]
  · rename_i h
    constructor
    · intro e; exact absurd e (by simp)
    · intro hi
      exact absurd (fun a => by rw [hi a]; exact ⟨Int.natCast_nonneg _, by exact_mod_cast (i a).isLt⟩) h

/-! ## A segment sum into a vector -/

/-- The dimension numbers of `M` scalar updates added into a length-`N` vector at the indices an `M × 1` column names. -/
abbrev scat1 (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem scat1_lands {N M w : ℕ} (wf : ScatterDims.WF ⟨1, ![N]⟩ ⟨2, ![M, 1]⟩ ⟨1, ![M]⟩ [] [0] [0] 1)
    (idx : IVec ⟨2, ![M, 1]⟩ w) (e : Fin M) (c : Fin N) :
    (scat1 N M wf).resultIdx? (ix1 e) idx = some (ix1 c) ↔ (idx (ix2 e (0 : Fin 1))).toInt = (c.val : ℤ) := by
  rw [resultIdx?_eq_some_iff]
  have hsi : (scat1 N M wf).siIdx (ix1 e) ⟨List.idxOf (0 : Fin 1) (scat1 N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have h0 : (scat1 N M wf).start (ix1 e) idx 0 + ((scat1 N M wf).window (ix1 e) 0 : ℤ) = (idx (ix2 e (0 : Fin 1))).toInt := by
    unfold ScatterDims.start ScatterDims.window
    rw [dif_pos (show (0 : Fin 1) ∈ (scat1 N M wf).scatterDimsToOperandDims from List.mem_singleton.mpr rfl),
      dif_neg (show (0 : Fin 1) ∉ (scat1 N M wf).sKept from by simp [Shape.kept]), hsi]
    simp
  constructor
  · intro h; rw [← h0]; exact h 0
  · intro h a
    obtain rfl : a = 0 := Subsingleton.elim _ _
    rw [h0]; exact h

/-- The vector after the segment sum, at `c`: the old entry plus the updates whose index is `c`. -/
theorem scatterAdd_vec_apply {N M w : ℕ} {φ : FTy} (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (scat1 N M wf) x idx upd (ix1 c)
      = x (ix1 c) + ∑ e : Fin M, if (idx (ix2 e (0 : Fin 1))).toInt = (c.val : ℤ) then upd (ix1 e) else 0 := by
  show Ideal.hostScatterAdd (scat1 N M wf) x idx upd (ix1 c) = _
  unfold Ideal.hostScatterAdd
  congr 1
  rw [Finset.sum_filter, sum_idx1]
  refine Finset.sum_congr rfl fun e _ => ?_
  by_cases h : (idx (ix2 e (0 : Fin 1))).toInt = (c.val : ℤ)
  · rw [if_pos h, if_pos ((scat1_lands wf idx e c).mpr h)]
  · rw [if_neg h, if_neg (mt (scat1_lands wf idx e c).mp h)]

/-! ## A segment sum of rows into a matrix -/

/-- The dimension numbers of `M` rows of length `K` added into the rows of an `N × K` matrix that an `M × 1` column names. -/
abbrev scat2 (N K M : ℕ) (wf : ScatterDims.WF ⟨2, ![N, K]⟩ ⟨2, ![M, 1]⟩ ⟨2, ![M, K]⟩ [1] [0] [0] 1) :
    ScatterDims ⟨2, ![N, K]⟩ ⟨2, ![M, 1]⟩ ⟨2, ![M, K]⟩ where
  updateWindowDims := [1]
  insertedWindowDims := [0]
  scatterDimsToOperandDims := [0]
  indexVectorDim := 1
  wf := wf

theorem scat2_lands {N K M w : ℕ} (wf : ScatterDims.WF ⟨2, ![N, K]⟩ ⟨2, ![M, 1]⟩ ⟨2, ![M, K]⟩ [1] [0] [0] 1)
    (idx : IVec ⟨2, ![M, 1]⟩ w) (e : Fin M) (k' : Fin K) (c : Fin N) (k : Fin K) :
    (scat2 N K M wf).resultIdx? (ix2 e k') idx = some (ix2 c k)
      ↔ (idx (ix2 e (0 : Fin 1))).toInt = (c.val : ℤ) ∧ k' = k := by
  rw [resultIdx?_eq_some_iff]
  have hsi : (scat2 N K M wf).siIdx (ix2 e k') ⟨List.idxOf (0 : Fin 2) (scat2 N K M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have h0 : (scat2 N K M wf).start (ix2 e k') idx 0 + ((scat2 N K M wf).window (ix2 e k') 0 : ℤ)
      = (idx (ix2 e (0 : Fin 1))).toInt := by
    unfold ScatterDims.start ScatterDims.window
    rw [dif_pos (show (0 : Fin 2) ∈ (scat2 N K M wf).scatterDimsToOperandDims from List.mem_singleton.mpr rfl),
      dif_neg (show (0 : Fin 2) ∉ (scat2 N K M wf).sKept from by simp [Shape.kept]), hsi]
    simp
  have h1 : (scat2 N K M wf).start (ix2 e k') idx 1 + ((scat2 N K M wf).window (ix2 e k') 1 : ℤ) = (k'.val : ℤ) := by
    unfold ScatterDims.start ScatterDims.window
    rw [dif_neg (show (1 : Fin 2) ∉ (scat2 N K M wf).scatterDimsToOperandDims from by simp),
      dif_pos (show (1 : Fin 2) ∈ (scat2 N K M wf).sKept from by simp [Shape.kept])]
    simp
    rfl
  constructor
  · intro h
    refine ⟨by rw [← h0]; exact h 0, Fin.ext ?_⟩
    have := h 1; rw [h1] at this; exact_mod_cast this
  · rintro ⟨h, rfl⟩ a
    rcases (by decide : ∀ a : Fin 2, a = 0 ∨ a = 1) a with rfl | rfl
    · rw [h0]; exact h
    · exact h1

/-- The matrix after the segment sum, at `(c, k)`: the old entry plus column `k` of the update rows whose index is `c`. -/
theorem scatterAdd_rows_apply {N K M w : ℕ} {φ : FTy}
    (wf : ScatterDims.WF ⟨2, ![N, K]⟩ ⟨2, ![M, 1]⟩ ⟨2, ![M, K]⟩ [1] [0] [0] 1)
    (x : FVec Ideal ⟨2, ![N, K]⟩ φ) (idx : IVec ⟨2, ![M, 1]⟩ w) (upd : FVec Ideal ⟨2, ![M, K]⟩ φ) (c : Fin N) (k : Fin K) :
    Host.scatterAdd (scat2 N K M wf) x idx upd (ix2 c k)
      = x (ix2 c k) + ∑ e : Fin M, if (idx (ix2 e (0 : Fin 1))).toInt = (c.val : ℤ) then upd (ix2 e k) else 0 := by
  show Ideal.hostScatterAdd (scat2 N K M wf) x idx upd (ix2 c k) = _
  unfold Ideal.hostScatterAdd
  congr 1
  rw [Finset.sum_filter, sum_idx2]
  refine Finset.sum_congr rfl fun e _ => ?_
  by_cases h : (idx (ix2 e (0 : Fin 1))).toInt = (c.val : ℤ)
  · rw [if_pos h, Finset.sum_eq_single k]
    · rw [if_pos ((scat2_lands wf idx e k c k).mpr ⟨h, rfl⟩)]
    · intro k' _ hk
      rw [if_neg (fun hl => hk ((scat2_lands wf idx e k' c k).mp hl).2)]
    · intro hk; exact absurd (Finset.mem_univ k) hk
  · rw [if_neg h]
    exact Finset.sum_eq_zero fun k' _ => if_neg (fun hl => h ((scat2_lands wf idx e k' c k).mp hl).1)

/-! ## Look-ups -/

/-- The dimension numbers of a look-up of `M` entries of a length-`N` vector at the indices an `M × 1` column names. -/
abbrev gath1 (N M : ℕ) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The clamped place a signed index word names in an array of `N` rows. -/
def clampIdx {w : ℕ} (N : ℕ) (hN : 0 < N) (v : BitVec w) : Fin N := ⟨min v.toInt.toNat (N - 1), by omega⟩

/-- The look-up in a vector at `e`: the vector at the clamped index. -/
theorem gather_vec_apply {α : Type} {N M w : ℕ} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gath1 N M wf) x idx (ix1 e) = x (ix1 (clampIdx N hN (idx (ix2 e (0 : Fin 1))))) := by
  unfold Host.gather
  congr 1
  funext a
  obtain rfl : a = 0 := Subsingleton.elim _ _
  refine Fin.ext ?_
  show (gath1 N M wf).start (ix1 e) idx 0 + (gath1 N M wf).batchCoord (ix1 e) 0 + (gath1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N M wf).startIndexMap from List.mem_singleton.mpr rfl)]
  have hsi : (gath1 N M wf).siIdx (ix1 e) ⟨List.idxOf (0 : Fin 1) (gath1 N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of a look-up of `M` whole rows of an `N × K` matrix at the indices an `M × 1` column names. -/
abbrev gath2 (N K M : ℕ) (wf : GatherDims.WF ⟨2, ![N, K]⟩ ⟨2, ![M, 1]⟩ ⟨2, ![M, K]⟩ [1] [0] [] [0] [] 1 ![1, K]) :
    GatherDims ⟨2, ![N, K]⟩ ⟨2, ![M, 1]⟩ ⟨2, ![M, K]⟩ where
  offsetDims := [1]
  collapsedSliceDims := [0]
  operandBatchingDims := []
  startIndicesBatchingDims := []
  startIndexMap := [0]
  indexVectorDim := 1
  sliceSizes := ![1, K]
  wf := wf

/-- The look-up of rows at `(e, k)`: the matrix at the clamped row, column `k`. -/
theorem gather_rows_apply {α : Type} {N K M w : ℕ} (hN : 0 < N)
    (wf : GatherDims.WF ⟨2, ![N, K]⟩ ⟨2, ![M, 1]⟩ ⟨2, ![M, K]⟩ [1] [0] [] [0] [] 1 ![1, K])
    (x : (⟨2, ![N, K]⟩ : Shape).Idx → α) (idx : IVec ⟨2, ![M, 1]⟩ w) (e : Fin M) (k : Fin K) :
    Host.gather (gath2 N K M wf) x idx (ix2 e k) = x (ix2 (clampIdx N hN (idx (ix2 e (0 : Fin 1)))) k) := by
  unfold Host.gather
  congr 1
  have hsi : (gath2 N K M wf).siIdx (ix2 e k) ⟨List.idxOf (0 : Fin 2) (gath2 N K M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  funext a
  refine Fin.ext ?_
  show (gath2 N K M wf).start (ix2 e k) idx a + (gath2 N K M wf).batchCoord (ix2 e k) a + (gath2 N K M wf).offCoord (ix2 e k) a = _
  rw [GatherDims.batchCoord_eq_zero _ _ _ List.not_mem_nil]
  rcases (by decide : ∀ a : Fin 2, a = 0 ∨ a = 1) a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N K M wf).startIndexMap from List.mem_singleton.mpr rfl), hsi]
    rfl
  · unfold GatherDims.start GatherDims.offCoord
    rw [dif_neg (show (1 : Fin 2) ∉ (gath2 N K M wf).startIndexMap from by simp),
      dif_pos (show (1 : Fin 2) ∈ (gath2 N K M wf).sKept from by simp [Shape.kept])]
    simp
    rfl

end Cert.Lib.Segment

end
-- ==== Proof.Spec.lean ====
/-
  Two rounds of mean aggregation over a graph, as one function of the inputs, index by index.

  A node's new features are a dense map of two rows: the mean of the rows its in-edges point from (a sum over the
  edges that end at the node, divided by their number or by one if there is none) and the node's own row; the
  result is divided by its Euclidean length (or by a small floor if the length is smaller) and negative entries are
  cut to zero. The edges are two tables of 800000 signed words, sources and targets: a source word is read from the
  end of the node list if negative and clamped into it, and an edge whose target word is no node is dropped.

  The sum over the edges does not depend on the order the edges are listed in (`aggOf_comp`, `cntOf_comp`), and
  multiplying by the reciprocal of a nonzero count is dividing by it (`outK_eq_preOut`): these are the two laws by
  which a program that sorts its edges first and multiplies by a stored reciprocal computes the same function.
-/
import proofs.«122687_j10582799417745_2_alg».proof.Proof.LibSegment
import Idealize.ShloMosaic.Lib.IdealHost

noncomputable section

open scoped BigOperators

namespace Cert.Sage

open Idealize.ShloMosaic Idealize.ShloMosaic.ValueIdx Cert.Lib.Segment

/-- A signed index word read from the end of a list of `n` when negative. -/
def wrapIdx (n v : BitVec 32) : BitVec 32 := Scalar.select (IntOp.cmpi .slt v 0#32) (IntOp.addi v n) v

/-- The node a source word names: wrapped, then clamped into the 50000 nodes. -/
def rowOf (v : BitVec 32) : Fin 50000 := clampIdx 50000 (by norm_num) (wrapIdx 50000#32 v)

/-- Column `k` of the sum of the source rows of the edges that end at node `p`. -/
def aggOf (h : (⟨2, ![50000, 128]⟩ : Shape).Idx → EReal) (src dst : Fin 800000 → BitVec 32) (p : Fin 50000) (k : Fin 128) : EReal :=
  ∑ e : Fin 800000, if (dst e).toInt = (p.val : ℤ) then h (ix2 (rowOf (src e)) k) else 0

/-- The number of edges that end at node `p`. -/
def cntOf (dst : Fin 800000 → BitVec 32) (p : Fin 50000) : EReal :=
  ∑ e : Fin 800000, if (dst e).toInt = (p.val : ℤ) then (1 : EReal) else 0

/-- Listing the edges in another order changes neither sum. -/
theorem aggOf_comp (h : (⟨2, ![50000, 128]⟩ : Shape).Idx → EReal) (src dst : Fin 800000 → BitVec 32) (σ : Equiv.Perm (Fin 800000))
    (p : Fin 50000) (k : Fin 128) : aggOf h (src ∘ σ) (dst ∘ σ) p k = aggOf h src dst p k :=
  Equiv.sum_comp σ fun e => if (dst e).toInt = (p.val : ℤ) then h (ix2 (rowOf (src e)) k) else 0

theorem cntOf_comp (dst : Fin 800000 → BitVec 32) (σ : Equiv.Perm (Fin 800000)) (p : Fin 50000) :
    cntOf (dst ∘ σ) p = cntOf dst p :=
  Equiv.sum_comp σ fun e => if (dst e).toInt = (p.val : ℤ) then (1 : EReal) else 0

/-- A row before normalisation, the mean taken by dividing: `(Σ_k agg k / mx · Wl c k + b c) + Σ_k h k · Wr c k`. -/
def preOut (agg hrow : Fin 128 → EReal) (mx : EReal) (Wl Wr : Fin 128 → Fin 128 → EReal) (b : Fin 128 → EReal) (c : Fin 128) : EReal :=
  ((∑ k : Fin 128, Ideal.div (agg k) mx * Wl c k) + b c) + ∑ k : Fin 128, hrow k * Wr c k

/-- The same row with the mean taken by a stored factor and the weights stored transposed:
    `(Σ_k (agg k · inv) · WlT k c + Σ_k h k · WrT k c) + b c`. -/
def outK (agg hrow : Fin 128 → EReal) (inv : EReal) (WlT WrT : Fin 128 → Fin 128 → EReal) (b : Fin 128 → EReal) (c : Fin 128) : EReal :=
  ((∑ k : Fin 128, (agg k * inv) * WlT k c) + ∑ k : Fin 128, hrow k * WrT k c) + b c

/-- With the factor the reciprocal of a nonzero divisor the two rows agree: `a · (1 / mx) = a / mx` off zero, and
    the three summands are added in another order. -/
theorem outK_eq_preOut (agg hrow : Fin 128 → EReal) (mx : EReal) (hmx : mx ≠ 0) (Wl Wr : Fin 128 → Fin 128 → EReal)
    (b : Fin 128 → EReal) (c : Fin 128) :
    outK agg hrow (Ideal.div 1 mx) (fun k c => Wl c k) (fun k c => Wr c k) b c = preOut agg hrow mx Wl Wr b c := by
  unfold outK preOut
  have e : ∀ a : EReal, a * Ideal.div 1 mx = Ideal.div a mx := fun a => by
    unfold Ideal.div
    rw [if_neg hmx, if_neg hmx, one_mul]
  simp only [e]
  exact add_right_comm _ _ _

/-- A row divided by its length (floored) and cut at zero. -/
def finish (out : Fin 128 → EReal) (c : Fin 128) : EReal :=
  max (Ideal.div (out c) (max (Ideal.sqrt (∑ j : Fin 128, out j * out j)) (Ideal.ofBits .f32 0x2B8CBCCC#32))) 0

/-- One round at node `p`, column `c`. -/
def layerAt (h : (⟨2, ![50000, 128]⟩ : Shape).Idx → EReal) (src dst : Fin 800000 → BitVec 32)
    (Wl : (⟨2, ![128, 128]⟩ : Shape).Idx → EReal) (b : (⟨1, ![128]⟩ : Shape).Idx → EReal)
    (Wr : (⟨2, ![128, 128]⟩ : Shape).Idx → EReal) (p : Fin 50000) (c : Fin 128) : EReal :=
  finish (preOut (aggOf h src dst p) (fun k => h (ix2 p k)) (max (cntOf dst p) 1)
    (fun c k => Wl (ix2 c k)) (fun c k => Wr (ix2 c k)) (fun c => b (ix1 c))) c

/-- One round, as an array. -/
def layer (h : (⟨2, ![50000, 128]⟩ : Shape).Idx → EReal) (src dst : Fin 800000 → BitVec 32)
    (Wl : (⟨2, ![128, 128]⟩ : Shape).Idx → EReal) (b : (⟨1, ![128]⟩ : Shape).Idx → EReal)
    (Wr : (⟨2, ![128, 128]⟩ : Shape).Idx → EReal) : (⟨2, ![50000, 128]⟩ : Shape).Idx → EReal :=
  fun i => layerAt h src dst Wl b Wr (i 0) (i 1)

theorem layer_apply (h : (⟨2, ![50000, 128]⟩ : Shape).Idx → EReal) (src dst : Fin 800000 → BitVec 32)
    (Wl : (⟨2, ![128, 128]⟩ : Shape).Idx → EReal) (b : (⟨1, ![128]⟩ : Shape).Idx → EReal)
    (Wr : (⟨2, ![128, 128]⟩ : Shape).Idx → EReal) (p : Fin 50000) (c : Fin 128) :
    layer h src dst Wl b Wr (ix2 p c) = layerAt h src dst Wl b Wr p c := rfl

/-- The source and target words of edge `e` in a `2 × 800000` table. -/
def srcOf (tbl : (⟨2, ![2, 800000]⟩ : Shape).Idx → BitVec 32) (e : Fin 800000) : BitVec 32 := tbl (ix2 (0 : Fin 2) e)
def dstOf (tbl : (⟨2, ![2, 800000]⟩ : Shape).Idx → BitVec 32) (e : Fin 800000) : BitVec 32 := tbl (ix2 (1 : Fin 2) e)

/-- Both rounds. -/
def sage (x : (⟨2, ![50000, 128]⟩ : Shape).Idx → EReal) (tbl : (⟨2, ![2, 800000]⟩ : Shape).Idx → BitVec 32)
    (Wl0 : (⟨2, ![128, 128]⟩ : Shape).Idx → EReal) (b0 : (⟨1, ![128]⟩ : Shape).Idx → EReal) (Wr0 : (⟨2, ![128, 128]⟩ : Shape).Idx → EReal)
    (Wl1 : (⟨2, ![128, 128]⟩ : Shape).Idx → EReal) (b1 : (⟨1, ![128]⟩ : Shape).Idx → EReal) (Wr1 : (⟨2, ![128, 128]⟩ : Shape).Idx → EReal) :
    (⟨2, ![50000, 128]⟩ : Shape).Idx → EReal :=
  layer (layer x (srcOf tbl) (dstOf tbl) Wl0 b0 Wr0) (srcOf tbl) (dstOf tbl) Wl1 b1 Wr1

/-- A count is never negative, so the divisor `max count 1` is not zero. -/
theorem max_cnt_ne_zero (dst : Fin 800000 → BitVec 32) (p : Fin 50000) : max (cntOf dst p) 1 ≠ 0 :=
  ne_of_gt (lt_of_lt_of_le zero_lt_one (le_max_right _ _))

end Cert.Sage

end
-- ==== Proof.LibRows.lean ====
/-
  Row-by-row readings of two-axis arrays, for any sizes.

  A dense layer with a per-row normalisation touches an `n × b` array one row at a time: a product with a weight
  matrix (entry `(p, c)` is the sum over `q` of row `p` at `q` times the weight at `(q, c)`), a sum along each row,
  a per-row number broadcast back along its row, a per-column vector broadcast down the rows. Each lemma below reads
  one of these operations at an entry `(p, c)`, in the kernel's spelling (matmul into a zero accumulator, a lane
  reduction, vector broadcasts) and in the host's (a reduce with an initial value, broadcast-in-dim).
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.Lib.Rows

open Idealize.ShloMosaic Idealize.ShloMosaic.ValueIdx

variable {α : Type}

/-! ## Products -/

/-- An `m × k` by `k × n` matrix product accumulated into zero reads, at `(a, b)`, the sum over the contracted
    coordinate of the products of the entries: the same sum the host's product of the two matrices is. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Sums along a row -/

/-- The index of an `n × k` array over row `a` with the column `c` put back. -/
theorem lift_row {n k : ℕ} (h : (⟨2, ![n, k]⟩ : Shape).Reduces [1] ⟨1, ![n]⟩) (a : Fin n) (c : Fin k) :
    h.lift (ix1 a) c = ix2 a c := by
  funext ax; apply Fin.ext
  match ax with
  | ⟨0, _⟩ => rfl
  | ⟨1, _⟩ => rfl

/-- A lane reduction of an `n × k` array along its rows reads, at row `a`, the sum of that row. -/
theorem rowSum_apply {n k : ℕ} {φ : FTy} (src : FVec Ideal ⟨2, ![n, k]⟩ φ) (acc : BitVec φ.bits)
    (h : (⟨2, ![n, k]⟩ : Shape).Reduces [1] ⟨1, ![n]⟩) (hφ : FKind.Formats φ) (hacc : acc = FKind.add.neutral φ hφ) (a : Fin n) :
    multiReduction .add [1] ⟨1, ![n]⟩ src acc h hφ hacc (ix1 a) = ∑ c : Fin k, src (ix2 a c) := by
  rw [Ideal.multiReduction_add_single]
  exact Finset.sum_congr rfl fun c _ => congrArg src (lift_row h a c)

/-- The same for an f32 lane sum from the zero word, with the accumulator's side condition spelt as a program prints it
    (the word equal to itself). -/
theorem rowSum_f32_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = 0x00000000#32) (a : Fin n) :
    multiReduction .add [1] ⟨1, ![n]⟩ src 0x00000000#32 h hφ hacc (ix1 a) = ∑ c : Fin k, src (ix2 a c) :=
  rowSum_apply src 0x00000000#32 h hφ hacc a

/-- The exact row sums themselves (what a lane sum denotes on the extended reals), read at row `a`. -/
theorem reduceAdd_rows_apply {n k : ℕ} (x : (⟨2, ![n, k]⟩ : Shape).Idx → EReal)
    (h : (⟨2, ![n, k]⟩ : Shape).Reduces [1] ⟨1, ![n]⟩) (a : Fin n) :
    Ideal.reduceAdd h x (ix1 a) = ∑ c : Fin k, x (ix2 a c) := by
  rw [Ideal.reduceAdd_single]
  exact Finset.sum_congr rfl fun c _ => congrArg x (lift_row h a c)

/-- The host's exact row sums from an initial value, read at row `a`. -/
theorem hostReduceAdd_rows_apply {n k : ℕ} (x : (⟨2, ![n, k]⟩ : Shape).Idx → EReal) (init : EReal)
    (h' : (⟨2, ![n, k]⟩ : Shape).ReducesTo [1] ⟨1, ![n]⟩)
    (h : (⟨2, ![n, k]⟩ : Shape).Reduces [1] ⟨1, ![n]⟩) (a : Fin n) :
    Ideal.hostReduceAdd h' x init (ix1 a) = init + ∑ c : Fin k, x (ix2 a c) := by
  rw [Ideal.hostReduceAdd_single h' h]
  exact congrArg (init + ·) (Finset.sum_congr rfl fun c _ => congrArg x (lift_row h a c))

/-- The host's sum of an `n × k` array along its rows reads, at row `a`, the initial value plus the sum of that row. -/
theorem hostRowSum_apply {n k : ℕ} {φ : FTy} {u : Shape} (x : FVec Ideal ⟨2, ![n, k]⟩ φ) (init : u.Idx → Ideal φ)
    (h' : (⟨2, ![n, k]⟩ : Shape).ReducesTo [1] ⟨1, ![n]⟩) (hu : 0 < u.numel)
    (h : (⟨2, ![n, k]⟩ : Shape).Reduces [1] ⟨1, ![n]⟩) (a : Fin n) :
    Host.reduceAdd x init h' hu (ix1 a) = init (Shape.Idx.first hu) + ∑ c : Fin k, x (ix2 a c) := by
  show Ideal.hostReduceAdd h' x (init (Shape.Idx.first hu)) (ix1 a) = _
  rw [Ideal.hostReduceAdd_single h' h]
  exact congrArg (init (Shape.Idx.first hu) + ·) (Finset.sum_congr rfl fun c _ => congrArg x (lift_row h a c))

/-! ## A per-row number broadcast along its row -/

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spelling of the same: an `a × 1` column broadcast in place (axes kept) to `a × b`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A per-column vector broadcast down the rows -/

/-- The host's spelling of one row over many: a `1 × b` row broadcast in place to `a × b` reads, at `(p, c)`, the row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector made a `1 × b` row by a broadcast along a new leading axis reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A scalar broadcast to any shape reads the scalar everywhere. -/
theorem broadcastInDim_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

end Cert.Lib.Rows

end
-- ==== Proof.Payload.lean ====
/-
  The dense step's stored block, entry by entry.

  On a block of 5000 rows the body forms, for each row, the aggregated row scaled by the row's stored factor, multiplies
  it and the node's own row by the two weight matrices (both products accumulated from zero), adds the bias row, and
  then divides the row by its Euclidean length (or by a small floor if the length is smaller) and cuts negative entries
  to zero. Read on the extended reals the roundings to the narrower format are the identity, so entry (r, c) of what is
  stored is the specification's finish of the specification's outK at row r: a function of row r of the two
  5000 x 128 blocks, of the factor at r, of the two weight matrices and of the bias row.
-/
import proofs.«122687_j10582799417745_2_alg».proof.Proof.Gen.KernelIdeal.Skeleton
import proofs.«122687_j10582799417745_2_alg».proof.Proof.Spec
import proofs.«122687_j10582799417745_2_alg».proof.Proof.LibRows

noncomputable section

open scoped BigOperators

namespace Cert.KernelIdeal.Payload

open Idealize.ShloMosaic Idealize.ShloMosaic.ValueIdx Cert.Lib.Rows

/-! ## A vector made a column -/

/-- A length-a vector cast to an a x 1 column reads, at (p, u), the vector at p: the two row-major positions are
    p and p * 1 + u with u = 0. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The row before normalisation -/

/-- The printed contraction record is the plain rows-by-columns product of a 5000 x 128 by a 128 x 128 matrix. -/
theorem dot_eq_plain : dot_S5000x128_S128x128_S5000x128_1_0_0_1_n_n = DotDims.plain 5000 128 128 := rfl

/-- The two products into zero, summed, plus the bias row broadcast down the rows, at (r, c): the first product's left
    factor at (r, k) is the block's entry times the row's factor (the column broadcast along the row), the bias
    contributes its entry at c. -/
theorem pre_apply (v0 : FVec Ideal S5000x128 .f32) (v2 : FVec Ideal S5000x1 .f32) (v7 : FVec Ideal S5000x128 .f32)
    (v9 v12 : FVec Ideal S128x128 .bf16) (v16 : FVec Ideal S1x128 .f32)
    (h1 : S5000x1.Broadcasts S5000x128) (h2 : S1x128.Broadcasts S5000x128) (hb : FTy.bits .bf16 < FTy.bits .f32)
    (r : Fin 5000) (c : Fin 128) :
    addf (addf
        (matmul (DotDims.plain 5000 128 128) none (truncf .bf16 (mulf v0 (broadcastTo S5000x128 v2 h1)) hb) v9
          (constant (F := Ideal) S5000x128 .f32 0x00000000#32))
        (matmul (DotDims.plain 5000 128 128) none (truncf .bf16 v7 hb) v12 (constant (F := Ideal) S5000x128 .f32 0x00000000#32)))
      (broadcastTo S5000x128 v16 h2) (ix2 r c)
    = Cert.Sage.outK (fun k => v0 (ix2 r k)) (fun k => v7 (ix2 r k)) (v2 (ix2 r (0 : Fin 1)))
        (fun k c => v9 (ix2 k c)) (fun k c => v12 (ix2 k c)) (fun c => v16 (ix2 (0 : Fin 1) c)) c := by
  show matmul (DotDims.plain 5000 128 128) none (truncf .bf16 (mulf v0 (broadcastTo S5000x128 v2 h1)) hb) v9
          (constant (F := Ideal) S5000x128 .f32 0x00000000#32) (ix2 r c)
      + matmul (DotDims.plain 5000 128 128) none (truncf .bf16 v7 hb) v12 (constant (F := Ideal) S5000x128 .f32 0x00000000#32) (ix2 r c)
      + broadcastTo S5000x128 v16 h2 (ix2 r c) = _
  rw [matmul_plain_zero_apply, matmul_plain_zero_apply, broadcastTo_1b_ab_apply]
  unfold Cert.Sage.outK
  refine congrArg₂ (· + ·) (congrArg₂ (· + ·) (Finset.sum_congr rfl fun k _ => ?_) rfl) rfl
  show (v0 (ix2 r k) * broadcastTo S5000x128 v2 h1 (ix2 r k)) * v9 (ix2 k c) = _
  rw [broadcastTo_a1_ab_apply]

/-! ## Normalisation and the cut at zero -/

/-- A block divided row by row by the floored length of the row and cut at zero, at (r, c): the lane sum of the squares
    is the sum over the row, the column of lengths read at (r, 0) is the vector of sums at r, and the constant zero
    word is 0. The floor word is kept as a word. -/
theorem finish_apply (out : FVec Ideal S5000x128 .f32) (h1 : S5000x128.Reduces [1] S5000) (hφ : FKind.Formats .f32)
    (hacc : (0x00000000#32 : BitVec 32) = 0x00000000#32) (h2 : S5000.ShapeCasts S5000x1) (h3 : S5000x1.Broadcasts S5000x128)
    (r : Fin 5000) (c : Fin 128) :
    maximumf (divf out (broadcastTo S5000x128
        (maximumf (sqrt (shapeCast S5000x1 (multiReduction (F := Ideal) .add [1] S5000 (mulf out out) 0x00000000#32 h1 hφ hacc) h2))
          (broadcast S5000x1 (Scalar.ofBits (F := Ideal) .f32 0x2B8CBCCC#32))) h3))
      (broadcast S5000x128 (Scalar.ofBits (F := Ideal) .f32 0x00000000#32)) (ix2 r c)
    = Cert.Sage.finish (fun j => out (ix2 r j)) c := by
  show max (Ideal.div (out (ix2 r c)) (broadcastTo S5000x128
        (maximumf (sqrt (shapeCast S5000x1 (multiReduction (F := Ideal) .add [1] S5000 (mulf out out) 0x00000000#32 h1 hφ hacc) h2))
          (broadcast S5000x1 (Scalar.ofBits (F := Ideal) .f32 0x2B8CBCCC#32))) h3 (ix2 r c)))
      (Ideal.ofBits .f32 0x00000000#32) = _
  rw [broadcastTo_a1_ab_apply, Ideal.ofBits_zero_f32]
  show max (Ideal.div (out (ix2 r c)) (max (Ideal.sqrt (shapeCast S5000x1
        (multiReduction (F := Ideal) .add [1] S5000 (mulf out out) 0x00000000#32 h1 hφ hacc) h2 (ix2 r (0 : Fin 1))))
      (Ideal.ofBits .f32 0x2B8CBCCC#32))) 0 = _
  rw [shapeCast_a_a1_apply, rowSum_f32_apply]
  rfl

/-! ## The two stored blocks -/

/-- The first layer's stored block at (r, c). -/
theorem pay0_apply (v0 : Vec Ideal S5000x128 .f32) (v2 : Vec Ideal S5000x1 .f32) (v7 : Vec Ideal S5000x128 .f32)
    (v9 v12 : Vec Ideal S128x128 .bf16) (v16 : Vec Ideal S1x128 .f32) (r : Fin 5000) (c : Fin 128) :
    Gen.k0_pay1 (F := Ideal) v0 v2 v7 v9 v12 v16 (ix2 r c)
      = Cert.Sage.finish (Cert.Sage.outK (fun k => v0 (ix2 r k)) (fun k => v7 (ix2 r k)) (v2 (ix2 r (0 : Fin 1)))
          (fun k c => v9 (ix2 k c)) (fun k c => v12 (ix2 k c)) (fun c => v16 (ix2 (0 : Fin 1) c))) c := by
  unfold Gen.k0_pay1
  simp only [shapeCast_self]
  refine (finish_apply _ _ _ _ _ _ r c).trans ?_
  exact congrArg (fun o => Cert.Sage.finish o c) (funext fun j => pre_apply v0 v2 v7 v9 v12 v16 _ _ _ r j)

/-- The second layer's stored block at (r, c): the same body, the node's own block passing through one more cast to
    its own shape. -/
theorem pay1_apply (v0 : Vec Ideal S5000x128 .f32) (v2 : Vec Ideal S5000x1 .f32) (v7 : Vec Ideal S5000x128 .f32)
    (v10 v13 : Vec Ideal S128x128 .bf16) (v17 : Vec Ideal S1x128 .f32) (r : Fin 5000) (c : Fin 128) :
    Gen.k1_pay1 (F := Ideal) v0 v2 v7 v10 v13 v17 (ix2 r c)
      = Cert.Sage.finish (Cert.Sage.outK (fun k => v0 (ix2 r k)) (fun k => v7 (ix2 r k)) (v2 (ix2 r (0 : Fin 1)))
          (fun k c => v10 (ix2 k c)) (fun k c => v13 (ix2 k c)) (fun c => v17 (ix2 (0 : Fin 1) c))) c := by
  unfold Gen.k1_pay1
  simp only [shapeCast_self]
  refine (finish_apply _ _ _ _ _ _ r c).trans ?_
  exact congrArg (fun o => Cert.Sage.finish o c) (funext fun j => pre_apply v0 v2 v7 v10 v13 v17 _ _ _ r j)

end Cert.KernelIdeal.Payload

end
-- ==== Proof.Region.lean ====
/-
  Each launch of the dense kernel as one function of the arrays it finds.

  A launch runs the body on ten blocks of 5000 rows. At point `t` the aggregated array, the node array and the
  reciprocal column are staged at rows `5000 t … 5000 t + 4999`, the two weight matrices and the bias row whole, and the
  body's stored block is written back to the same rows of the output. So row `p` of the output depends on row `p` of
  the three moving operands only, the ten blocks tile the output, and the output array after the launch is the dense
  map (`denseK`) of the operand arrays as the launch finds them.
-/
import proofs.«122687_j10582799417745_2_alg».proof.Proof.Gen.KernelIdeal.Frame
import proofs.«122687_j10582799417745_2_alg».proof.Proof.Spec
import proofs.«122687_j10582799417745_2_alg».proof.Proof.Payload
import Idealize.ShloMosaic.Lib.Pipeline.Value
import Idealize.ShloMosaic.Lib.ValueIdx

set_option maxRecDepth 16384

noncomputable section

namespace Cert.KernelIdeal.Region

open Cert.KernelIdeal Cert.KernelIdeal.Facts₀ Cert.KernelIdeal.Facts Cert.KernelIdeal.Gen
open Idealize.ShloMosaic Idealize.ShloMosaic.TcCoe Idealize.ShloMosaic.ValueIdx
open Idealize.SL Idealize.SL.Sem
open Idealize.ShloMosaic.Pipeline (Dat Cfg Window)
open Cert.Sage

theorem hz : (![0, 0] : Fin 2 → Nat) = fun _ => 0 := funext fun a => by fin_cases a <;> rfl

/-- The dense map on whole arrays: row `p` of the result is the normalised, clipped row of the aggregated row `p`
    scaled by the stored factor of node `p`, the node's own row, the transposed weights and the bias row. -/
def denseK (agg h : S50000x128.Idx → EReal) (inv : S50000x1.Idx → EReal) (WlT WrT : S128x128.Idx → EReal)
    (b : S1x128.Idx → EReal) : S50000x128.Idx → EReal :=
  fun i => finish (outK (fun k => agg (ix2 (i 0) k)) (fun k => h (ix2 (i 0) k)) (inv (ix2 (i 0) (0 : Fin 1)))
    (fun k c => WlT (ix2 k c)) (fun k c => WrT (ix2 k c)) (fun c => b (ix2 (0 : Fin 1) c))) (i 1)

theorem denseK_apply (agg h : S50000x128.Idx → EReal) (inv : S50000x1.Idx → EReal) (WlT WrT : S128x128.Idx → EReal)
    (b : S1x128.Idx → EReal) (p : Fin 50000) (q : Fin 128) :
    denseK agg h inv WlT WrT b (ix2 p q) = finish (outK (fun k => agg (ix2 p k)) (fun k => h (ix2 p k)) (inv (ix2 p (0 : Fin 1)))
      (fun k c => WlT (ix2 k c)) (fun k c => WrT (ix2 k c)) (fun c => b (ix2 (0 : Fin 1) c))) q := rfl

/-! ## The first launch -/

section R0
variable (V : (c : Dev nD) → (b : Ref sig .tc) → Buf (Elt Ideal) ((c : Thread nD τ).loc b))

/-- The index maps over the ten grid points: the three moving inputs move with the output along the rows, the three
    resident inputs stay at the origin, and the output's block number is the point's. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 9 ∧ win0_6.index t (1 : Fin 2) = 0 :=
  (by decide +kernel : ∀ t : Fin grid0.N, _)

/-- Every block of rows is some point's. -/
theorem idx_onto0 : ∀ q0 : Fin 10, ∃ t : Fin cfg0.N, win0_6.index t = ![q0.val, 0] :=
  (by decide +kernel : ∀ q0 : Fin 10, ∃ t : Fin grid0.N, win0_6.index t = ![q0.val, 0])

set_option maxHeartbeats 4000000 in
/-- What point `t` writes back is block `t` of the dense map of the arrays the launch finds. -/
theorem flushed0_eq (c : Dev nD) (t : Fin cfg0.N) :
    (dat0 V c).flushed 6 t = ((cfg0.win 6).blk t).view.read (Elt Ideal)
      (denseK (V c main_v39) (V c main_arg0) (V c main_v27) (V c main_v43) (V c main_v44) (V c main_v42)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  obtain ⟨f00, f01, f10, f11, f20, f21, f30, f31, f40, f41, f50, f51, f60, f61⟩ := idx_facts0 t
  funext j
  obtain ⟨r, q, rfl⟩ : ∃ (r : Fin 5000) (q : Fin 128), j = ix2 r q := ⟨j 0, j 1, eq_ix2 j⟩
  refine (Payload.pay0_apply (iblk0 V c 0 t) (iblk0 V c 2 t) (iblk0 V c 1 t) (iblk0 V c 3 t) (iblk0 V c 4 t) (iblk0 V c 5 t) r q).trans ?_
  have hr : r.val < 5000 := r.isLt
  have hp : win0_6.index t (0 : Fin 2) * 5000 + r.val < 50000 := by omega
  have e6 : ((cfg0.win 6).blk t).view.emb (ix2 r q) = ix2 (⟨win0_6.index t (0 : Fin 2) * 5000 + r.val, hp⟩ : Fin 50000) q := by
    funext a; apply Fin.ext
    match a with
    | ⟨0, _⟩ => show win0_6.index t (0 : Fin 2) * 5000 + 1 * r.val = win0_6.index t (0 : Fin 2) * 5000 + r.val; omega
    | ⟨1, _⟩ => show win0_6.index t (1 : Fin 2) * 128 + 1 * q.val = q.val; omega
  show _ = denseK _ _ _ _ _ _ (((cfg0.win 6).blk t).view.emb (ix2 r q))
  rw [e6, denseK_apply]
  have a0 : (fun k : Fin 128 => iblk0 V c 0 t (ix2 r k)) = fun k => V c main_v39 (ix2 (⟨win0_6.index t (0 : Fin 2) * 5000 + r.val, hp⟩ : Fin 50000) k) :=
    funext fun k => by
      show V c main_v39 (((cfg0.win 0).blk t).view.emb (ix2 r k)) = _
      refine congrArg (V c main_v39) ?_
      funext a; apply Fin.ext
      match a with
      | ⟨0, _⟩ => show win0_0.index t (0 : Fin 2) * 5000 + 1 * r.val = win0_6.index t (0 : Fin 2) * 5000 + r.val; omega
      | ⟨1, _⟩ => show win0_0.index t (1 : Fin 2) * 128 + 1 * k.val = k.val; omega
  have a1 : (fun k : Fin 128 => iblk0 V c 1 t (ix2 r k)) = fun k => V c main_arg0 (ix2 (⟨win0_6.index t (0 : Fin 2) * 5000 + r.val, hp⟩ : Fin 50000) k) :=
    funext fun k => by
      show V c main_arg0 (((cfg0.win 1).blk t).view.emb (ix2 r k)) = _
      refine congrArg (V c main_arg0) ?_
      funext a; apply Fin.ext
      match a with
      | ⟨0, _⟩ => show win0_1.index t (0 : Fin 2) * 5000 + 1 * r.val = win0_6.index t (0 : Fin 2) * 5000 + r.val; omega
      | ⟨1, _⟩ => show win0_1.index t (1 : Fin 2) * 128 + 1 * k.val = k.val; omega
  have a2 : iblk0 V c 2 t (ix2 r (0 : Fin 1)) = V c main_v27 (ix2 (⟨win0_6.index t (0 : Fin 2) * 5000 + r.val, hp⟩ : Fin 50000) (0 : Fin 1)) := by
    show V c main_v27 (((cfg0.win 2).blk t).view.emb (ix2 r (0 : Fin 1))) = _
    refine congrArg (V c main_v27) ?_
    funext a; apply Fin.ext
    match a with
    | ⟨0, _⟩ => show win0_2.index t (0 : Fin 2) * 5000 + 1 * r.val = win0_6.index t (0 : Fin 2) * 5000 + r.val; omega
    | ⟨1, _⟩ => show win0_2.index t (1 : Fin 2) * 1 + 1 * 0 = 0; omega
  have a3 : (fun (k c' : Fin 128) => iblk0 V c 3 t (ix2 k c')) = fun k c' => V c main_v43 (ix2 k c') :=
    funext fun k => funext fun c' => by
      show V c main_v43 (((cfg0.win 3).blk t).view.emb (ix2 k c')) = _
      refine congrArg (V c main_v43) ?_
      funext a; apply Fin.ext
      match a with
      | ⟨0, _⟩ => show win0_3.index t (0 : Fin 2) * 128 + 1 * k.val = k.val; omega
      | ⟨1, _⟩ => show win0_3.index t (1 : Fin 2) * 128 + 1 * c'.val = c'.val; omega
  have a4 : (fun (k c' : Fin 128) => iblk0 V c 4 t (ix2 k c')) = fun k c' => V c main_v44 (ix2 k c') :=
    funext fun k => funext fun c' => by
      show V c main_v44 (((cfg0.win 4).blk t).view.emb (ix2 k c')) = _
      refine congrArg (V c main_v44) ?_
      funext a; apply Fin.ext
      match a with
      | ⟨0, _⟩ => show win0_4.index t (0 : Fin 2) * 128 + 1 * k.val = k.val; omega
      | ⟨1, _⟩ => show win0_4.index t (1 : Fin 2) * 128 + 1 * c'.val = c'.val; omega
  have a5 : (fun c' : Fin 128 => iblk0 V c 5 t (ix2 (0 : Fin 1) c')) = fun c' => V c main_v42 (ix2 (0 : Fin 1) c') :=
    funext fun c' => by
      show V c main_v42 (((cfg0.win 5).blk t).view.emb (ix2 (0 : Fin 1) c')) = _
      refine congrArg (V c main_v42) ?_
      funext a; apply Fin.ext
      match a with
      | ⟨0, _⟩ => show win0_5.index t (0 : Fin 2) * 1 + 1 * 0 = 0; omega
      | ⟨1, _⟩ => show win0_5.index t (1 : Fin 2) * 128 + 1 * c'.val = c'.val; omega
  rw [a0, a1, a2, a3, a4, a5]

/-- An index is in point `t`'s block iff each coordinate is in the block's range. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v45).slice (win0_6.rect t)).set ↔ _
  rw [View.set_slice_whole, Rect.mem_set_unit]
  exact Iff.rfl

/-- The ten blocks of 5000 rows cover the array: row `p` is in block `p / 5000`. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the launch is the dense map of the arrays the launch finds. -/
theorem final0 (c : Dev nD) :
    (dat0 V c).arrAt 6 cfg0.N = denseK (V c main_v39) (V c main_arg0) (V c main_v27) (V c main_v43) (V c main_v44) (V c main_v42) :=
  (dat0 V c).arrAt_eq_of_cover 6 _ (fun t _ => flushed0_eq V c t) (cover0)

end R0

/-! ## The second launch -/

section R1
variable (V : (c : Dev nD) → (b : Ref sig .tc) → Buf (Elt Ideal) ((c : Thread nD τ).loc b))

/-- The index maps over the ten grid points: the three moving inputs move with the output along the rows, the three
    resident inputs stay at the origin, and the output's block number is the point's. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 9 ∧ win1_6.index t (1 : Fin 2) = 0 :=
  (by decide +kernel : ∀ t : Fin grid1.N, _)

/-- Every block of rows is some point's. -/
theorem idx_onto1 : ∀ q0 : Fin 10, ∃ t : Fin cfg1.N, win1_6.index t = ![q0.val, 0] :=
  (by decide +kernel : ∀ q0 : Fin 10, ∃ t : Fin grid1.N, win1_6.index t = ![q0.val, 0])

set_option maxHeartbeats 4000000 in
/-- What point `t` writes back is block `t` of the dense map of the arrays the launch finds. -/
theorem flushed1_eq (c : Dev nD) (t : Fin cfg1.N) :
    (dat1 V c).flushed 6 t = ((cfg1.win 6).blk t).view.read (Elt Ideal)
      (denseK (V c main_v57) (V c main_v45) (V c main_v27) (V c main_v61) (V c main_v62) (V c main_v60)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  obtain ⟨f00, f01, f10, f11, f20, f21, f30, f31, f40, f41, f50, f51, f60, f61⟩ := idx_facts1 t
  funext j
  obtain ⟨r, q, rfl⟩ : ∃ (r : Fin 5000) (q : Fin 128), j = ix2 r q := ⟨j 0, j 1, eq_ix2 j⟩
  refine (Payload.pay1_apply (iblk1 V c 0 t) (iblk1 V c 2 t) (iblk1 V c 1 t) (iblk1 V c 3 t) (iblk1 V c 4 t) (iblk1 V c 5 t) r q).trans ?_
  have hr : r.val < 5000 := r.isLt
  have hp : win1_6.index t (0 : Fin 2) * 5000 + r.val < 50000 := by omega
  have e6 : ((cfg1.win 6).blk t).view.emb (ix2 r q) = ix2 (⟨win1_6.index t (0 : Fin 2) * 5000 + r.val, hp⟩ : Fin 50000) q := by
    funext a; apply Fin.ext
    match a with
    | ⟨0, _⟩ => show win1_6.index t (0 : Fin 2) * 5000 + 1 * r.val = win1_6.index t (0 : Fin 2) * 5000 + r.val; omega
    | ⟨1, _⟩ => show win1_6.index t (1 : Fin 2) * 128 + 1 * q.val = q.val; omega
  show _ = denseK _ _ _ _ _ _ (((cfg1.win 6).blk t).view.emb (ix2 r q))
  rw [e6, denseK_apply]
  have a0 : (fun k : Fin 128 => iblk1 V c 0 t (ix2 r k)) = fun k => V c main_v57 (ix2 (⟨win1_6.index t (0 : Fin 2) * 5000 + r.val, hp⟩ : Fin 50000) k) :=
    funext fun k => by
      show V c main_v57 (((cfg1.win 0).blk t).view.emb (ix2 r k)) = _
      refine congrArg (V c main_v57) ?_
      funext a; apply Fin.ext
      match a with
      | ⟨0, _⟩ => show win1_0.index t (0 : Fin 2) * 5000 + 1 * r.val = win1_6.index t (0 : Fin 2) * 5000 + r.val; omega
      | ⟨1, _⟩ => show win1_0.index t (1 : Fin 2) * 128 + 1 * k.val = k.val; omega
  have a1 : (fun k : Fin 128 => iblk1 V c 1 t (ix2 r k)) = fun k => V c main_v45 (ix2 (⟨win1_6.index t (0 : Fin 2) * 5000 + r.val, hp⟩ : Fin 50000) k) :=
    funext fun k => by
      show V c main_v45 (((cfg1.win 1).blk t).view.emb (ix2 r k)) = _
      refine congrArg (V c main_v45) ?_
      funext a; apply Fin.ext
      match a with
      | ⟨0, _⟩ => show win1_1.index t (0 : Fin 2) * 5000 + 1 * r.val = win1_6.index t (0 : Fin 2) * 5000 + r.val; omega
      | ⟨1, _⟩ => show win1_1.index t (1 : Fin 2) * 128 + 1 * k.val = k.val; omega
  have a2 : iblk1 V c 2 t (ix2 r (0 : Fin 1)) = V c main_v27 (ix2 (⟨win1_6.index t (0 : Fin 2) * 5000 + r.val, hp⟩ : Fin 50000) (0 : Fin 1)) := by
    show V c main_v27 (((cfg1.win 2).blk t).view.emb (ix2 r (0 : Fin 1))) = _
    refine congrArg (V c main_v27) ?_
    funext a; apply Fin.ext
    match a with
    | ⟨0, _⟩ => show win1_2.index t (0 : Fin 2) * 5000 + 1 * r.val = win1_6.index t (0 : Fin 2) * 5000 + r.val; omega
    | ⟨1, _⟩ => show win1_2.index t (1 : Fin 2) * 1 + 1 * 0 = 0; omega
  have a3 : (fun (k c' : Fin 128) => iblk1 V c 3 t (ix2 k c')) = fun k c' => V c main_v61 (ix2 k c') :=
    funext fun k => funext fun c' => by
      show V c main_v61 (((cfg1.win 3).blk t).view.emb (ix2 k c')) = _
      refine congrArg (V c main_v61) ?_
      funext a; apply Fin.ext
      match a with
      | ⟨0, _⟩ => show win1_3.index t (0 : Fin 2) * 128 + 1 * k.val = k.val; omega
      | ⟨1, _⟩ => show win1_3.index t (1 : Fin 2) * 128 + 1 * c'.val = c'.val; omega
  have a4 : (fun (k c' : Fin 128) => iblk1 V c 4 t (ix2 k c')) = fun k c' => V c main_v62 (ix2 k c') :=
    funext fun k => funext fun c' => by
      show V c main_v62 (((cfg1.win 4).blk t).view.emb (ix2 k c')) = _
      refine congrArg (V c main_v62) ?_
      funext a; apply Fin.ext
      match a with
      | ⟨0, _⟩ => show win1_4.index t (0 : Fin 2) * 128 + 1 * k.val = k.val; omega
      | ⟨1, _⟩ => show win1_4.index t (1 : Fin 2) * 128 + 1 * c'.val = c'.val; omega
  have a5 : (fun c' : Fin 128 => iblk1 V c 5 t (ix2 (0 : Fin 1) c')) = fun c' => V c main_v60 (ix2 (0 : Fin 1) c') :=
    funext fun c' => by
      show V c main_v60 (((cfg1.win 5).blk t).view.emb (ix2 (0 : Fin 1) c')) = _
      refine congrArg (V c main_v60) ?_
      funext a; apply Fin.ext
      match a with
      | ⟨0, _⟩ => show win1_5.index t (0 : Fin 2) * 1 + 1 * 0 = 0; omega
      | ⟨1, _⟩ => show win1_5.index t (1 : Fin 2) * 128 + 1 * c'.val = c'.val; omega
  rw [a0, a1, a2, a3, a4, a5]

/-- An index is in point `t`'s block iff each coordinate is in the block's range. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v63).slice (win1_6.rect t)).set ↔ _
  rw [View.set_slice_whole, Rect.mem_set_unit]
  exact Iff.rfl

/-- The ten blocks of 5000 rows cover the array: row `p` is in block `p / 5000`. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array after the launch is the dense map of the arrays the launch finds. -/
theorem final1 (c : Dev nD) :
    (dat1 V c).arrAt 6 cfg1.N = denseK (V c main_v57) (V c main_v45) (V c main_v27) (V c main_v61) (V c main_v62) (V c main_v60) :=
  (dat1 V c).arrAt_eq_of_cover 6 _ (fun t _ => flushed1_eq V c t) (cover1)

end R1

end Cert.KernelIdeal.Region

end
-- ==== Proof.LibStableSort.lean ====
/-
  A stable sort of two lists, read at a place; the positions it carries.

  A stable sort of two lists of the same length along their one axis compares the pairs of entries at two positions
  and moves both lists alike: each result at place `j` is its list at ONE position, the same for both lists, and the
  map from places to positions is a bijection of the positions (so it is a permutation of them). When the second
  list is the list 0, 1, …, n - 1 of positions itself, the second result is that permutation written as words. A
  position below 2^31, as a 32-bit word read signed, is the position: it is not negative, so reading it from the end
  of a list when negative leaves it alone, and clamping it into a list it is a position of gives the position back.
-/
import Idealize.ShloMosaic.Lib.SortFacts
import Idealize.ShloMosaic.Lib.ValueIdx
import proofs.«122687_j10582799417745_2_alg».proof.Proof.LibSegment

noncomputable section

namespace Cert.Lib.StableSort

open Idealize.ShloMosaic Idealize.ShloMosaic.ValueIdx Cert.Lib.Segment

/-! ## A stable sort of two lists read at a place -/

/-- The index of a list at a position, written either way. -/
theorem ofFin_eq_ix1 {n : ℕ} (k : Fin n) : Shape.Idx.ofFin k = ix1 k := by
  funext a
  obtain rfl : a = 0 := Subsingleton.elim _ _
  exact Fin.ext rfl

/-- Position `k`'s pair of entries sorts strictly before position `k'`'s. -/
def pairBefore {n : ℕ} {α β : Type} (cmp : α × β → α × β → BitVec 1) (x : (⟨1, ![n]⟩ : Shape).Idx → α)
    (y : (⟨1, ![n]⟩ : Shape).Idx → β) (k k' : Fin n) : Bool :=
  cmp (x (ix1 k), y (ix1 k)) (x (ix1 k'), y (ix1 k')) == 1#1

/-- The first result of a stable sort of two lists at place `j`: the first list at the position the sort put there. -/
theorem sort2_rank1_fst {n : ℕ} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).1 j = x (ix1 (sortedFrom (pairBefore cmp x y) (j 0))) := by
  unfold Host.sort2
  simp
  simp only [ofFin_eq_ix1]
  rfl

/-- The second result at place `j`: the second list at the same position. -/
theorem sort2_rank1_snd {n : ℕ} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j = y (ix1 (sortedFrom (pairBefore cmp x y) (j 0))) := by
  unfold Host.sort2
  simp
  simp only [ofFin_eq_ix1]
  rfl

/-- The map from sorted places to positions, as a permutation of the positions. -/
def sortedPerm {n : ℕ} (before : Fin n → Fin n → Bool) : Equiv.Perm (Fin n) :=
  Equiv.ofBijective (sortedFrom before) ⟨sortedFrom_injective before, sortedFrom_surjective before⟩

theorem sortedPerm_apply {n : ℕ} (before : Fin n → Fin n → Bool) (k : Fin n) :
    sortedPerm before k = sortedFrom before k := by
  unfold sortedPerm
  exact Equiv.ofBijective_apply _ _ _

/-- Sorting a list together with the list of its positions: the second result at place `e` is the word of the
    position the sort put there. -/
theorem argsort_apply {n : ℕ} {α : Type} (cmp : α × BitVec 32 → α × BitVec 32 → BitVec 1)
    (x : (⟨1, ![n]⟩ : Shape).Idx → α) (e : Fin n) :
    (Host.sort2 ⟨1, ![n]⟩ 0 cmp x (iotaInDim ⟨1, ![n]⟩ 32 0)).2 (ix1 e)
      = BitVec.ofNat 32 (sortedFrom (pairBefore cmp x (iotaInDim ⟨1, ![n]⟩ 32 0)) e).val := by
  rw [sort2_rank1_snd]
  rfl

/-! ## A position as a signed word -/

/-- A number below 2^31, as a 32-bit word read signed, is itself. -/
theorem toInt_ofNat_of_lt (k : ℕ) (hk : k < 2 ^ 31) : (BitVec.ofNat 32 k).toInt = (k : ℤ) := by
  have hn : (BitVec.ofNat 32 k).toNat = k := by
    rw [BitVec.toNat_ofNat]
    exact Nat.mod_eq_of_lt (by omega)
  rw [BitVec.toInt_eq_toNat_of_lt (by rw [hn]; omega), hn]

/-- Such a word is not negative, so "the word plus `n` if it is negative, else the word" is the word. -/
theorem select_slt_zero_ofNat (n : BitVec 32) (k : ℕ) (hk : k < 2 ^ 31) :
    Scalar.select (IntOp.cmpi .slt (BitVec.ofNat 32 k) 0#32) (IntOp.addi (BitVec.ofNat 32 k) n) (BitVec.ofNat 32 k)
      = BitVec.ofNat 32 k := by
  have hs : (BitVec.ofNat 32 k).slt 0#32 = false := by
    rw [BitVec.slt_eq_decide, decide_eq_false_iff_not, toInt_ofNat_of_lt k hk, BitVec.toInt_zero]
    omega
  unfold Scalar.select IntOp.cmpi
  show (if BitVec.ofBool ((BitVec.ofNat 32 k).slt 0#32) = 1 then _ else _) = _
  rw [hs]
  rfl

/-- Clamped into a list of at most 2^31 entries, the word of a position of the list is the position. -/
theorem clampIdx_ofNat {N : ℕ} (hN : 0 < N) (hle : N ≤ 2 ^ 31) (k : Fin N) :
    clampIdx N hN (BitVec.ofNat 32 k.val) = k := by
  refine Fin.ext ?_
  show min (BitVec.ofNat 32 k.val).toInt.toNat (N - 1) = k.val
  have := k.isLt
  rw [toInt_ofNat_of_lt k.val (by omega), Int.toNat_natCast]
  omega

end Cert.Lib.StableSort

end
-- ==== Proof.EdgeOrder.lean ====
/-
  The order the edges are visited in.

  Before the sums over edges are taken the edge list is sorted by target: the target words are sorted together with
  the list 0, 1, …, 799999 of positions by a stable sort that compares the targets as signed words, and the second
  result (for each sorted place, the position it was taken from) is the index column both edge tables are looked up
  at. A stable sort of a list reads the list through one self-map of its positions, and that map is a bijection.
  A carried position is below 2^31, so as a signed word it is not negative: reading it from the end of the list when
  negative leaves it alone, and clamping it into the list gives the position back. Hence a table looked up at the
  sorting order is the table read through ONE permutation of the 800000 edges, and the permutation depends on the
  targets only.
-/
import proofs.«122687_j10582799417745_2_alg».proof.Proof.EdgeCol
import proofs.«122687_j10582799417745_2_alg».proof.Proof.LibStableSort
import proofs.«122687_j10582799417745_2_alg».proof.Proof.Spec

noncomputable section

namespace Cert.KernelIdeal.EdgeOrder

open Idealize.ShloMosaic Idealize.ShloMosaic.ValueIdx Cert.KernelIdeal Cert.KernelIdeal.Facts₀ Cert.KernelIdeal.Facts
  Cert.Lib.Segment Cert.Lib.StableSort Cert.Sage

/-- A position below 2^31 read from the end of a list when negative is left alone. -/
theorem wrapIdx_ofNat (n : BitVec 32) (k : ℕ) (hk : k < 2 ^ 31) : wrapIdx n (BitVec.ofNat 32 k) = BitVec.ofNat 32 k := by
  unfold wrapIdx
  exact select_slt_zero_ofNat n k hk

/-- Edge `k`'s target is below edge `k'`'s, as signed words. -/
def targetBefore (dst : IVec S800000 32) (k k' : Fin 800000) : Bool := (dst (ix1 k)).slt (dst (ix1 k'))

/-- The sort's comparison of two positions looks at the targets only. -/
theorem pairBefore_eq (dst pos : IVec S800000 32) : pairBefore comparator_i32_i32_d0 dst pos = targetBefore dst := by
  funext k k'
  show (BitVec.ofBool ((dst (ix1 k)).slt (dst (ix1 k'))) == 1#1) = (dst (ix1 k)).slt (dst (ix1 k'))
  cases (dst (ix1 k)).slt (dst (ix1 k')) <;> rfl

/-- The edges in the order of a stable sort by target: place `e` of the sorted list holds edge `sortPerm dst e`. It is
    a permutation of the edges, and depends on the targets only. -/
def sortPerm (dst : IVec S800000 32) : Equiv.Perm (Fin 800000) :=
  Equiv.ofBijective (sortedFrom (targetBefore dst))
    ⟨sortedFrom_injective (targetBefore dst), sortedFrom_surjective (targetBefore dst)⟩

theorem sortPerm_apply (dst : IVec S800000 32) (e : Fin 800000) : sortPerm dst e = sortedFrom (targetBefore dst) e := by
  unfold sortPerm
  exact Equiv.ofBijective_apply _ _ _

/-- The carried positions at place `e`: the word of the edge the sort put there. -/
theorem order_apply (dst : IVec S800000 32) (e : Fin 800000) :
    Edge.order dst (ix1 e) = BitVec.ofNat 32 (sortPerm dst e).val := by
  unfold Edge.order
  rw [sort2_rank1_snd, pairBefore_eq, sortPerm_apply]
  rfl

/-- The index column at place `e`: the same word. -/
theorem orderCol_apply (dst : IVec S800000 32) (e : Fin 800000) :
    Edge.orderCol dst (ix2 e (0 : Fin 1)) = BitVec.ofNat 32 (sortPerm dst e).val := by
  unfold Edge.orderCol Edge.col
  rw [broadcastInDim_apply _ _ _ _ (ix1 e) (fun a => by
    obtain rfl : a = 0 := Subsingleton.elim _ _
    exact (if_neg (by decide)).symm)]
  show wrapIdx 800000#32 (Edge.order dst (ix1 e)) = _
  rw [order_apply]
  exact wrapIdx_ofNat _ _ (by have := (sortPerm dst e).isLt; omega)

/-- A table looked up at the sorting order is the table read through the permutation. -/
theorem sorted_apply (dst y : IVec S800000 32) (e : Fin 800000) :
    Edge.sorted dst y (ix1 e) = y (ix1 (sortPerm dst e)) := by
  unfold Edge.sorted
  show Host.gather (gath1 800000 800000 gather_S800000_S800000x1_S800000_n_0_n_n_0_1_1_wf) y (Edge.orderCol dst) (ix1 e) = _
  rw [gather_vec_apply (by norm_num), orderCol_apply, clampIdx_ofNat _ (by norm_num)]

/-- The same for the whole table: as a function of the edge, the looked-up table is the table after the permutation. -/
theorem sorted_comp (dst y : IVec S800000 32) :
    (fun e : Fin 800000 => Edge.sorted dst y (ix1 e)) = (fun e : Fin 800000 => y (ix1 e)) ∘ sortPerm dst :=
  funext fun e => sorted_apply dst y e

end Cert.KernelIdeal.EdgeOrder

end
-- ==== Proof.KLayer.lean ====
/-
  One round, as the program with sorted edges computes it, is the specification's round.

  Entry by entry: a sorted table at position `e` is the original table at `σ e`, for the one permutation `σ` that sorts
  the targets; so the aggregated array at `(p, k)` is the sum, over the edges `σ e` whose target is `p`, of the source
  rows — the specification's sum with the edges listed in another order — and the segment sum of ones is the
  specification's count. The stored column is `1 / max count 1`, the stored weights are the transposes, the stored
  bias is the vector as a row. With these the dense map's row is the specification's row: the factor is the
  reciprocal of a nonzero divisor, and the summands are added in another order.
-/
import proofs.«122687_j10582799417745_2_alg».proof.Proof.Region
import proofs.«122687_j10582799417745_2_alg».proof.Proof.KTerms
import proofs.«122687_j10582799417745_2_alg».proof.Proof.EdgeOrder
import proofs.«122687_j10582799417745_2_alg».proof.Proof.LibRows
import Idealize.ShloMosaic.Lib.IdealHost

set_option maxRecDepth 16384

noncomputable section

open scoped BigOperators

namespace Cert.KernelIdeal.KLayer

open Cert.KernelIdeal Cert.KernelIdeal.Facts₀ Cert.KernelIdeal.Facts
open Idealize.ShloMosaic Idealize.ShloMosaic.ValueIdx
open Cert.KernelIdeal.Edge Cert.KernelIdeal.KT Cert.KernelIdeal.EdgeOrder Cert.KernelIdeal.Region
open Cert.Sage Cert.Lib.Segment Cert.Lib.Rows

/-! ## The tables -/

/-- A vector made a column reads, at `(e, 0)`, the vector at `e`. -/
theorem col_apply (v : IVec S800000 32) (e : Fin 800000) : col v (ix2 e (0 : Fin 1)) = v (ix1 e) := by
  unfold col
  refine broadcastInDim_apply _ bcast_S800000_S800000x1_0 v (ix2 e (0 : Fin 1)) (ix1 e) fun ax => ?_
  match ax with
  | ⟨0, _⟩ =>
    rw [if_neg (show ¬ (S800000.size ⟨0, by decide⟩ = 1) from by show ¬ ((800000 : ℕ) = 1); norm_num)]
    rfl

theorem srcT_apply (tbl : IVec S2x800000 32) (e : Fin 800000) : srcT tbl (ix1 e) = srcOf tbl e := by
  unfold srcT srcOf
  exact tableRow_apply tbl (0 : Fin 2) ![0, 0] rfl rfl slices_S2x800000_S1x800000_0_0 shapeCasts_S1x800000_S800000 e

theorem dstT_apply (tbl : IVec S2x800000 32) (e : Fin 800000) : dstT tbl (ix1 e) = dstOf tbl e := by
  unfold dstT dstOf
  exact tableRow_apply tbl (1 : Fin 2) ![1, 0] rfl rfl slices_S2x800000_S1x800000_1_0 shapeCasts_S1x800000_S800000 e

/-- The sorted source words are the source words at the sorting permutation. -/
theorem srcS_apply (tbl : IVec S2x800000 32) (e : Fin 800000) : srcS tbl (ix1 e) = srcOf tbl (sortPerm (dstT tbl) e) := by
  unfold srcS
  rw [sorted_apply, srcT_apply]

theorem dstS_apply (tbl : IVec S2x800000 32) (e : Fin 800000) : dstS tbl (ix1 e) = dstOf tbl (sortPerm (dstT tbl) e) := by
  unfold dstS
  rw [sorted_apply, dstT_apply]

/-! ## The aggregated array and the count -/

/-- The segment sum of looked-up rows over tables that are the original tables read through a permutation of the
    edges: the specification's sum (the zero word is zero, a look-up reads the clamped wrapped source word, and the
    order of the edges does not matter). -/
theorem agg_core (h : FVec Ideal S50000x128 .f32) (sv dv : IVec S800000 32) (src dst : Fin 800000 → BitVec 32)
    (σ : Equiv.Perm (Fin 800000)) (hs : ∀ e, sv (ix1 e) = src (σ e)) (hd : ∀ e, dv (ix1 e) = dst (σ e))
    (p : Fin 50000) (k : Fin 128) :
    Host.scatterAdd scatter_S50000x128_S800000x1_S800000x128_1_0_0_1
      (broadcastInDim S50000x128 ![] bcast_S_S50000x128 (constant (F := Ideal) S_ .f32 0x00000000#32)) (col dv)
      (extf .f32 (Host.gather gather_S50000x128_S800000x1_S800000x128_1_0_n_n_0_1_1128 (truncf .bf16 h bitsLt_bf16_f32)
        (col (wrapVec 50000#32 sv))) bitsLt_bf16_f32) (ix2 p k)
    = aggOf h src dst p k := by
  rw [← aggOf_comp h src dst σ p k]
  show Host.scatterAdd (scat2 50000 128 800000 _) _ _ _ (ix2 p k) = _
  rw [scatterAdd_rows_apply, ValueIdx.broadcastInDim_scalar_apply]
  show Ideal.ofBits .f32 0x00000000#32 + _ = _
  rw [Ideal.ofBits_zero_f32, zero_add]
  unfold aggOf
  refine Finset.sum_congr rfl fun e _ => ?_
  rw [col_apply, hd e]
  show (if _ then Host.gather (gath2 50000 128 800000 _) h (col (wrapVec 50000#32 sv)) (ix2 e k) else 0) = _
  rw [gather_rows_apply (by norm_num : 0 < 50000), col_apply]
  show (if _ then h (ix2 (clampIdx 50000 _ (wrapIdx 50000#32 (sv (ix1 e)))) k) else 0) = _
  rw [hs e]
  rfl

/-- The segment sum of ones over such a table is the specification's count. -/
theorem cnt_core (dv : IVec S800000 32) (dst : Fin 800000 → BitVec 32) (σ : Equiv.Perm (Fin 800000))
    (hd : ∀ e, dv (ix1 e) = dst (σ e)) (p : Fin 50000) :
    Host.scatterAdd scatter_S50000_S800000x1_S800000_n_0_0_1
      (broadcastInDim S50000 ![] bcast_S_S50000 (constant (F := Ideal) S_ .f32 0x00000000#32)) (col dv)
      (broadcastInDim S800000 ![] bcast_S_S800000 (constant (F := Ideal) S_ .f32 0x3F800000#32)) (ix1 p)
    = cntOf dst p := by
  rw [← cntOf_comp dst σ p]
  show Host.scatterAdd (scat1 50000 800000 _) _ _ _ (ix1 p) = _
  rw [scatterAdd_vec_apply, ValueIdx.broadcastInDim_scalar_apply]
  show Ideal.ofBits .f32 0x00000000#32 + _ = _
  rw [Ideal.ofBits_zero_f32, zero_add]
  unfold cntOf
  refine Finset.sum_congr rfl fun e _ => ?_
  rw [col_apply, hd e, ValueIdx.broadcastInDim_scalar_apply]
  show (if _ then Ideal.ofBits .f32 0x3F800000#32 else 0) = _
  rw [Ideal.ofBits_one_f32]
  rfl

theorem aggK_apply (tbl : IVec S2x800000 32) (h : FVec Ideal S50000x128 .f32) (p : Fin 50000) (k : Fin 128) :
    aggK tbl h (ix2 p k) = aggOf h (srcOf tbl) (dstOf tbl) p k := by
  unfold aggK
  exact agg_core h (srcS tbl) (dstS tbl) (srcOf tbl) (dstOf tbl) (sortPerm (dstT tbl)) (srcS_apply tbl) (dstS_apply tbl) p k

theorem cntK_apply (tbl : IVec S2x800000 32) (p : Fin 50000) : cntK tbl (ix1 p) = cntOf (dstOf tbl) p := by
  unfold cntK
  exact cnt_core (dstS tbl) (dstOf tbl) (sortPerm (dstT tbl)) (dstS_apply tbl) p

/-- One over a floored count, read at a node. -/
theorem inv_core (cv : FVec Ideal S50000 .f32) (p : Fin 50000) :
    shapeCast S50000x1 (Host.divf (broadcastInDim S50000 ![] bcast_S_S50000 (constant (F := Ideal) S_ .f32 0x3F800000#32))
      (maximumf cv (broadcastInDim S50000 ![] bcast_S_S50000 (constant (F := Ideal) S_ .f32 0x3F800000#32)))) shapeCasts_S50000_S50000x1
      (ix2 p (0 : Fin 1))
    = Ideal.div 1 (max (cv (ix1 p)) 1) := by
  rw [Payload.shapeCast_a_a1_apply]
  show Ideal.div (broadcastInDim S50000 ![] bcast_S_S50000 (constant (F := Ideal) S_ .f32 0x3F800000#32) (ix1 p))
    (max (cv (ix1 p)) (broadcastInDim S50000 ![] bcast_S_S50000 (constant (F := Ideal) S_ .f32 0x3F800000#32) (ix1 p))) = _
  rw [ValueIdx.broadcastInDim_scalar_apply]
  show Ideal.div (Ideal.ofBits .f32 0x3F800000#32) (max _ (Ideal.ofBits .f32 0x3F800000#32)) = _
  rw [Ideal.ofBits_one_f32]

theorem invK_apply (tbl : IVec S2x800000 32) (p : Fin 50000) :
    invK tbl (ix2 p (0 : Fin 1)) = Ideal.div 1 (max (cntOf (dstOf tbl) p) 1) := by
  unfold invK
  rw [inv_core (cntK tbl) p, cntK_apply]

/-! ## The weights and the bias -/

theorem wT_apply (W : FVec Ideal S128x128 .f32) (k c : Fin 128) : wT W (ix2 k c) = W (ix2 c k) := by
  unfold wT
  show transpose S128x128 [1, 0] W transposes_S128x128_S128x128_1_0 (ix2 k c) = _
  exact transpose_apply [1, 0] W transposes_S128x128_S128x128_1_0 (ix2 k c) (ix2 c k) (fun b => match b with
    | ⟨0, _⟩ => rfl
    | ⟨1, _⟩ => rfl)

theorem bRow_apply (b : FVec Ideal S128 .f32) (c : Fin 128) : bRow b (ix2 (0 : Fin 1) c) = b (ix1 c) := by
  unfold bRow
  exact shapeCast_apply b shapeCasts_S128_S1x128 (ix2 (0 : Fin 1) c) (ix1 c) (by
    rw [Shape.rowMajor_val_two, Shape.rowMajor_val_one]
    show c.val = 0 * 128 + c.val
    omega)

/-! ## The round -/

/-- The dense map of the program's own host arrays is the specification's round. -/
theorem klayer_eq (tbl : IVec S2x800000 32) (h : FVec Ideal S50000x128 .f32) (Wl : FVec Ideal S128x128 .f32)
    (b : FVec Ideal S128 .f32) (Wr : FVec Ideal S128x128 .f32) :
    denseK (aggK tbl h) h (invK tbl) (wT Wl) (wT Wr) (bRow b) = layer h (srcOf tbl) (dstOf tbl) Wl b Wr := by
  funext i
  obtain ⟨p, q, rfl⟩ : ∃ (p : Fin 50000) (q : Fin 128), i = ix2 p q := ⟨i 0, i 1, eq_ix2 i⟩
  rw [denseK_apply, layer_apply]
  unfold layerAt
  have hagg : (fun k : Fin 128 => aggK tbl h (ix2 p k)) = aggOf h (srcOf tbl) (dstOf tbl) p :=
    funext fun k => aggK_apply tbl h p k
  have hwl : (fun k c : Fin 128 => wT Wl (ix2 k c)) = fun k c => Wl (ix2 c k) :=
    funext fun k => funext fun c => wT_apply Wl k c
  have hwr : (fun k c : Fin 128 => wT Wr (ix2 k c)) = fun k c => Wr (ix2 c k) :=
    funext fun k => funext fun c => wT_apply Wr k c
  have hb : (fun c : Fin 128 => bRow b (ix2 (0 : Fin 1) c)) = fun c => b (ix1 c) :=
    funext fun c => bRow_apply b c
  rw [hagg, invK_apply, hwl, hwr, hb]
  refine congrArg (fun o => finish o q) (funext fun c => ?_)
  exact outK_eq_preOut (aggOf h (srcOf tbl) (dstOf tbl) p) (fun k => h (ix2 p k)) (max (cntOf (dstOf tbl) p) 1)
    (max_cnt_ne_zero _ _) (fun c k => Wl (ix2 c k)) (fun c k => Wr (ix2 c k)) (fun c => b (ix1 c)) c

end Cert.KernelIdeal.KLayer

end
-- ==== Proof.KernelValue.lean ====
/-
  The kernel program's result is the specification of its arguments.

  The result buffer ends at what the second launch's write-backs leave: the dense map of the second launch's operands,
  which are the aggregation of the first launch's result, that result itself, the stored reciprocal column and the
  second round's weights and bias. The first launch's result is the dense map of the aggregation of the input array,
  the input array, the same column and the first round's weights and bias. Each dense map of such operands is one
  round of the specification, so the result is the two rounds.
-/
import proofs.«122687_j10582799417745_2_alg».proof.Proof.RunValue
import proofs.«122687_j10582799417745_2_alg».proof.Proof.Glue
import proofs.«122687_j10582799417745_2_alg».proof.Proof.Region
import proofs.«122687_j10582799417745_2_alg».proof.Proof.KLayer

set_option maxRecDepth 16384

noncomputable section

namespace Cert.KernelIdeal.KernelValue

open Cert.KernelIdeal Cert.KernelIdeal.Facts₀ Cert.KernelIdeal.Facts Cert.KernelIdeal.Gen
open Idealize.ShloMosaic Idealize.ShloMosaic.TcCoe
open Idealize.SL Idealize.SL.Sem
open Cert.KernelIdeal.KT Cert.KernelIdeal.Glue Cert.KernelIdeal.Region Cert.KernelIdeal.KLayer Cert.Sage

variable (m : (ℓ : Loc nD τ sig) → Buf (Elt Ideal) ℓ) (ρ : Dev nD → PrngReg) (c : Dev nD)

/-- The first launch's result is the first round. -/
theorem first_round : (W4 m ρ c (Proc.devRef .tc main_v45) : S50000x128.Idx → EReal)
    = layer (m ((c : Thread nD τ).loc main_arg0)) (srcOf (m ((c : Thread nD τ).loc main_arg1))) (dstOf (m ((c : Thread nD τ).loc main_arg1)))
        (m ((c : Thread nD τ).loc main_arg2)) (m ((c : Thread nD τ).loc main_arg3)) (m ((c : Thread nD τ).loc main_arg4)) := by
  rw [show W4 m ρ c (Proc.devRef .tc main_v45) = (dat0 (V3 m ρ) c).arrAt 6 cfg0.N from W4_arr m ρ c 6]
  rw [final0 (V3 m ρ) c, g3_v39 m ρ c, g3_arg0 m ρ c, g3_v27 m ρ c, g3_v43 m ρ c, g3_v44 m ρ c, g3_v42 m ρ c]
  exact klayer_eq _ _ _ _ _

/-- The result buffer at the end of the run is both rounds. -/
theorem value : (W6 m ρ c (Proc.devRef .tc main_v63) : S50000x128.Idx → EReal)
    = sage (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  rw [show W6 m ρ c (Proc.devRef .tc main_v63) = (dat1 (V5 m ρ) c).arrAt 6 cfg1.N from W6_arr m ρ c 6]
  rw [final1 (V5 m ρ) c, g5_v57 m ρ c, g5_v45 m ρ c, g5_v27 m ρ c, g5_v61 m ρ c, g5_v62 m ρ c, g5_v60 m ρ c, first_round m ρ c,
    klayer_eq]
  rfl

/-- Every weakly fair execution of the kernel program terminates without a fault, with the result at the
    specification of the arguments and the arguments unchanged. -/
theorem run : θ_run defs (onTc (τ := τ) (main (F := Ideal))) ⟨m, fun _ => 0, ρ⟩ (fun r => ∀ c : Dev nD,
      r.2.mem ((c.tc : Thread nD τ).loc main_v63)
        = sage (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (Cert.KernelIdeal.RunValue.run_main m ρ)

end Cert.KernelIdeal.KernelValue

end
-- ==== Proof.RefValue.lean ====
/-
  The reference program's result is the specification, entry by entry.

  Each of the reference's two rounds is made of look-ups and segment sums. The source words of the edge table are
  read from the end of the node list when negative; the rows they name are looked up (the word clamped into the
  list); the looked-up rows, and a one per edge, are added into the row the edge's target word names (an edge whose
  target is no node adds nothing), starting from zero. The sums are divided by the counts, a count below one
  replaced by one; the means and the rows themselves are mapped by two weight matrices read transposed, with a bias
  read down the rows; each row is divided by the root of its sum of squares, floored, and cut at zero.

  Read at an entry `(p, c)`, stage by stage, this is `Cert.Sage.layer` on the two rows of the table
  (`refLayer_eq`). The program's two rounds are the same operations, the second applied to the first's result, so
  its result is `Cert.Sage.sage` of its eight arguments (`ref_eq`).
-/
import proofs.«122687_j10582799417745_2_alg».proof.Proof.Gen.ReferenceIdeal.Run
import proofs.«122687_j10582799417745_2_alg».proof.Proof.Gen.ReferenceIdeal.Read
import proofs.«122687_j10582799417745_2_alg».proof.Proof.Spec
import proofs.«122687_j10582799417745_2_alg».proof.Proof.LibSegment
import proofs.«122687_j10582799417745_2_alg».proof.Proof.LibRows
import Idealize.ShloMosaic.Lib.IdealHost
import Idealize.ShloMosaic.Lib.StackMember

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Lib.Segment Cert.Lib.Rows Cert.Sage

/-! ## One round of the reference, stage by stage, over any input -/

/-- The source words of the edges: row 0 of the table, flattened. -/
def srcW (tbl : IVec S2x800000 32) : IVec S800000 32 :=
  shapeCast _ (extractStridedSlice S1x800000 ![0, 0] tbl slices_S2x800000_S1x800000_0_0) shapeCasts_S1x800000_S800000

/-- The target words of the edges: row 1 of the table, flattened. -/
def dstW (tbl : IVec S2x800000 32) : IVec S800000 32 :=
  shapeCast _ (extractStridedSlice S1x800000 ![1, 0] tbl slices_S2x800000_S1x800000_1_0) shapeCasts_S1x800000_S800000

/-- The source words read from the end of the node list when negative, as a column. -/
def srcCol (tbl : IVec S2x800000 32) : IVec S800000x1 32 :=
  broadcastInDim S800000x1 ![0] bcast_S800000_S800000x1_0
    (select (cmpi .slt (srcW tbl) (broadcastInDim S800000 ![] bcast_S_S800000 (constantI S_ 32 0#32)))
      (addi (srcW tbl) (broadcastInDim S800000 ![] bcast_S_S800000 (constantI S_ 32 50000#32))) (srcW tbl))

/-- The target words as a column. -/
def dstCol (tbl : IVec S2x800000 32) : IVec S800000x1 32 :=
  broadcastInDim S800000x1 ![0] bcast_S800000_S800000x1_0 (dstW tbl)

/-- The sums of the source rows over the edges that end at each node. -/
def aggR (h : FVec Ideal S50000x128 .f32) (tbl : IVec S2x800000 32) : FVec Ideal S50000x128 .f32 :=
  Host.scatterAdd scatter_S50000x128_S800000x1_S800000x128_1_0_0_1
    (broadcastInDim S50000x128 ![] bcast_S_S50000x128 (constant S_ .f32 0x00000000#32)) (dstCol tbl)
    (Host.gather gather_S50000x128_S800000x1_S800000x128_1_0_n_n_0_1_1128 h (srcCol tbl))

/-- The numbers of edges that end at each node. -/
def cntR (tbl : IVec S2x800000 32) : FVec Ideal S50000 .f32 :=
  Host.scatterAdd scatter_S50000_S800000x1_S800000_n_0_0_1
    (broadcastInDim S50000 ![] bcast_S_S50000 (constant S_ .f32 0x00000000#32)) (dstCol tbl)
    (broadcastInDim S800000 ![] bcast_S_S800000 (constant S_ .f32 0x3F800000#32))

/-- The means: the sums divided by the counts, a count below one replaced by one. -/
def meanR (h : FVec Ideal S50000x128 .f32) (tbl : IVec S2x800000 32) : FVec Ideal S50000x128 .f32 :=
  Host.divf (aggR h tbl)
    (broadcastInDim S50000x128 ![0, 1] bcast_S50000x1_S50000x128_0_1
      (broadcastInDim S50000x1 ![0] bcast_S50000_S50000x1_0
        (maximumf (cntR tbl) (broadcastInDim S50000 ![] bcast_S_S50000 (constant S_ .f32 0x3F800000#32)))))

/-- The dense map of the means and of the rows themselves, before normalisation. -/
def preR (h : FVec Ideal S50000x128 .f32) (tbl : IVec S2x800000 32) (Wl : FVec Ideal S128x128 .f32)
    (b : FVec Ideal S128 .f32) (Wr : FVec Ideal S128x128 .f32) : FVec Ideal S50000x128 .f32 :=
  addf
    (addf
      (Host.dotGeneral dot_S50000x128_S128x128_S50000x128_1_0_0_1_n_n none (meanR h tbl)
        (transpose S128x128 [1, 0] Wl transposes_S128x128_S128x128_1_0))
      (broadcastInDim S50000x128 ![0, 1] bcast_S1x128_S50000x128_0_1 (broadcastInDim S1x128 ![1] bcast_S128_S1x128_1 b)))
    (Host.dotGeneral dot_S50000x128_S128x128_S50000x128_1_0_0_1_n_n none h
      (transpose S128x128 [1, 0] Wr transposes_S128x128_S128x128_1_0))

/-- The rows' lengths, floored, as a column. -/
def normR (h : FVec Ideal S50000x128 .f32) (tbl : IVec S2x800000 32) (Wl : FVec Ideal S128x128 .f32)
    (b : FVec Ideal S128 .f32) (Wr : FVec Ideal S128x128 .f32) : FVec Ideal S50000x1 .f32 :=
  maximumf
    (Host.sqrt (broadcastInDim S50000x1 ![0] bcast_S50000_S50000x1_0
      (Host.reduceAdd (mulf (preR h tbl Wl b Wr) (preR h tbl Wl b Wr)) (constant S_ .f32 0x00000000#32)
        reducesTo_S50000x128_S50000_d1 h_S_)))
    (broadcastInDim S50000x1 ![] bcast_S_S50000x1 (constant S_ .f32 0x2B8CBCCC#32))

/-- One round of the reference program. -/
def refLayer (h : FVec Ideal S50000x128 .f32) (tbl : IVec S2x800000 32) (Wl : FVec Ideal S128x128 .f32)
    (b : FVec Ideal S128 .f32) (Wr : FVec Ideal S128x128 .f32) : FVec Ideal S50000x128 .f32 :=
  maximumf
    (Host.divf (preR h tbl Wl b Wr) (broadcastInDim S50000x128 ![0, 1] bcast_S50000x1_S50000x128_0_1 (normR h tbl Wl b Wr)))
    (broadcastInDim S50000x128 ![] bcast_S_S50000x128 (constant S_ .f32 0x00000000#32))

/-! ## Two layout readings -/

/-- A length-`a` vector made an `a × 1` column reads, at `(p, u)`, the vector at `p`. -/
theorem broadcastInDim_a_a1_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A square matrix with its two axes exchanged reads, at `(k, c)`, the matrix at `(c, k)`. -/
theorem transpose_swap_apply {α : Type} {n : ℕ} (W : (⟨2, ![n, n]⟩ : Shape).Idx → α)
    (h : (⟨2, ![n, n]⟩ : Shape).Transposes [1, 0] ⟨2, ![n, n]⟩) (k c : Fin n) :
    transpose ⟨2, ![n, n]⟩ [1, 0] W h (ix2 k c) = W (ix2 c k) :=
  transpose_apply [1, 0] W h (ix2 k c) (ix2 c k) fun b => match b with
    | ⟨0, _⟩ => rfl
    | ⟨1, _⟩ => rfl

/-- The host's quotient at an index is the quotient of the elements. -/
theorem hostDivf_apply {s : Shape} {φ : FTy} (a b : FVec Ideal s φ) (i : s.Idx) : Host.divf a b i = Ideal.div (a i) (b i) := rfl

/-- The host's square root at an index is the root of the element. -/
theorem hostSqrt_apply {s : Shape} {φ : FTy} (a : FVec Ideal s φ) (i : s.Idx) : Host.sqrt a i = Ideal.sqrt (a i) := rfl

/-! ## The stages read at an entry -/

theorem srcW_apply (tbl : IVec S2x800000 32) (e : Fin 800000) : srcW tbl (ix1 e) = srcOf tbl e :=
  tableRow_apply tbl (0 : Fin 2) ![0, 0] rfl rfl slices_S2x800000_S1x800000_0_0 shapeCasts_S1x800000_S800000 e

theorem dstW_apply (tbl : IVec S2x800000 32) (e : Fin 800000) : dstW tbl (ix1 e) = dstOf tbl e :=
  tableRow_apply tbl (1 : Fin 2) ![1, 0] rfl rfl slices_S2x800000_S1x800000_1_0 shapeCasts_S1x800000_S800000 e

/-- The source column at edge `e`: the table's source word, read from the end of the node list when negative. -/
theorem srcCol_apply (tbl : IVec S2x800000 32) (e : Fin 800000) :
    srcCol tbl (ix2 e (0 : Fin 1)) = wrapIdx 50000#32 (srcOf tbl e) := by
  unfold srcCol
  refine (broadcastInDim_a_a1_apply _ bcast_S800000_S800000x1_0 e 0).trans ?_
  show Scalar.select (IntOp.cmpi .slt (srcW tbl (ix1 e)) 0#32) (IntOp.addi (srcW tbl (ix1 e)) 50000#32) (srcW tbl (ix1 e)) = _
  rw [srcW_apply]
  rfl

theorem dstCol_apply (tbl : IVec S2x800000 32) (e : Fin 800000) : dstCol tbl (ix2 e (0 : Fin 1)) = dstOf tbl e := by
  unfold dstCol
  exact (broadcastInDim_a_a1_apply _ bcast_S800000_S800000x1_0 e 0).trans (dstW_apply tbl e)

/-- The look-up at `(e, k)`: the input at the node the source word of edge `e` names, column `k`. -/
theorem gathered_apply (h : FVec Ideal S50000x128 .f32) (tbl : IVec S2x800000 32) (e : Fin 800000) (k : Fin 128) :
    Host.gather gather_S50000x128_S800000x1_S800000x128_1_0_n_n_0_1_1128 h (srcCol tbl) (ix2 e k)
      = h (ix2 (rowOf (srcOf tbl e)) k) := by
  refine (gather_rows_apply (by norm_num) gather_S50000x128_S800000x1_S800000x128_1_0_n_n_0_1_1128_wf h (srcCol tbl) e k).trans ?_
  rw [srcCol_apply]
  rfl

/-- The segment sum of rows at `(p, k)`: the zero it starts from plus the looked-up rows of the edges whose target is `p`. -/
theorem aggR_apply (h : FVec Ideal S50000x128 .f32) (tbl : IVec S2x800000 32) (p : Fin 50000) (k : Fin 128) :
    aggR h tbl (ix2 p k) = aggOf h (srcOf tbl) (dstOf tbl) p k := by
  unfold aggR
  refine (scatterAdd_rows_apply scatter_S50000x128_S800000x1_S800000x128_1_0_0_1_wf _ (dstCol tbl) _ p k).trans ?_
  unfold aggOf
  show (Ideal.ofBits .f32 0x00000000#32 : EReal) + _ = _
  rw [Ideal.ofBits_zero_f32, zero_add]
  refine Finset.sum_congr rfl fun e _ => ?_
  rw [dstCol_apply, gathered_apply]

/-- The segment sum of ones at `p`: the number of edges whose target is `p`. -/
theorem cntR_apply (tbl : IVec S2x800000 32) (p : Fin 50000) : cntR tbl (ix1 p) = cntOf (dstOf tbl) p := by
  unfold cntR
  refine (scatterAdd_vec_apply scatter_S50000_S800000x1_S800000_n_0_0_1_wf _ (dstCol tbl) _ p).trans ?_
  unfold cntOf
  show (Ideal.ofBits .f32 0x00000000#32 : EReal) + _ = _
  rw [Ideal.ofBits_zero_f32, zero_add]
  refine Finset.sum_congr rfl fun e _ => ?_
  rw [dstCol_apply]
  show (if _ then (Ideal.ofBits .f32 0x3F800000#32 : EReal) else 0) = _
  rw [Ideal.ofBits_one_f32]

theorem meanR_apply (h : FVec Ideal S50000x128 .f32) (tbl : IVec S2x800000 32) (p : Fin 50000) (k : Fin 128) :
    meanR h tbl (ix2 p k) = Ideal.div (aggOf h (srcOf tbl) (dstOf tbl) p k) (max (cntOf (dstOf tbl) p) 1) := by
  unfold meanR
  rw [hostDivf_apply, aggR_apply, broadcastInDim_a1_ab_apply, broadcastInDim_a_a1_apply, maximumf_apply, cntR_apply,
    ValueIdx.broadcastInDim_scalar_apply, constant_apply, Ideal.ofBits_one_f32]

/-- The dense map at `(p, c)`: the two products are sums over the contracted coordinate, the weights read transposed,
    the bias read down the rows. -/
theorem preR_apply (h : FVec Ideal S50000x128 .f32) (tbl : IVec S2x800000 32) (Wl : FVec Ideal S128x128 .f32)
    (b : FVec Ideal S128 .f32) (Wr : FVec Ideal S128x128 .f32) (p : Fin 50000) (c : Fin 128) :
    preR h tbl Wl b Wr (ix2 p c)
      = preOut (aggOf h (srcOf tbl) (dstOf tbl) p) (fun k => h (ix2 p k)) (max (cntOf (dstOf tbl) p) 1)
          (fun c k => Wl (ix2 c k)) (fun c k => Wr (ix2 c k)) (fun c => b (ix1 c)) c := by
  unfold preR preOut
  rw [addf_apply, addf_apply, broadcastInDim_1b_ab_apply, broadcastInDim_b_1b_apply]
  refine congrArg₂ (· + ·) (congrArg (· + b (ix1 c)) ?_) ?_
  · refine (StackMember.dotGeneral_plain_apply none (meanR h tbl) _ p c).trans ?_
    refine Finset.sum_congr rfl fun k _ => ?_
    rw [meanR_apply, transpose_swap_apply]
  · refine (StackMember.dotGeneral_plain_apply none h _ p c).trans ?_
    refine Finset.sum_congr rfl fun k _ => ?_
    rw [transpose_swap_apply]

/-- The norm column at row `p`: the root of the row's sum of squares (from zero), floored. -/
theorem normR_apply (h : FVec Ideal S50000x128 .f32) (tbl : IVec S2x800000 32) (Wl : FVec Ideal S128x128 .f32)
    (b : FVec Ideal S128 .f32) (Wr : FVec Ideal S128x128 .f32) (p : Fin 50000) :
    normR h tbl Wl b Wr (ix2 p (0 : Fin 1))
      = max (Ideal.sqrt (∑ j : Fin 128, preR h tbl Wl b Wr (ix2 p j) * preR h tbl Wl b Wr (ix2 p j)))
          (Ideal.ofBits .f32 0x2B8CBCCC#32) := by
  have hred : S50000x128.Reduces [1] S50000 := by decide
  unfold normR
  rw [maximumf_apply, hostSqrt_apply, broadcastInDim_a_a1_apply, hostRowSum_apply _ _ _ _ hred, constant_apply,
    Ideal.ofBits_zero_f32, zero_add, ValueIdx.broadcastInDim_scalar_apply, constant_apply]
  exact congrArg (fun z => max (Ideal.sqrt z) (Ideal.ofBits .f32 0x2B8CBCCC#32))
    (Finset.sum_congr rfl fun j _ => mulf_apply _ _ _)

/-- One round at `(p, c)`: the row of the dense map, divided by its floored length and cut at zero. -/
theorem refLayer_apply (h : FVec Ideal S50000x128 .f32) (tbl : IVec S2x800000 32) (Wl : FVec Ideal S128x128 .f32)
    (b : FVec Ideal S128 .f32) (Wr : FVec Ideal S128x128 .f32) (p : Fin 50000) (c : Fin 128) :
    refLayer h tbl Wl b Wr (ix2 p c) = finish (fun j => preR h tbl Wl b Wr (ix2 p j)) c := by
  unfold refLayer finish
  rw [maximumf_apply, hostDivf_apply, broadcastInDim_a1_ab_apply, normR_apply, ValueIdx.broadcastInDim_scalar_apply,
    constant_apply, Ideal.ofBits_zero_f32]

/-- One round of the reference is one round of the specification, on the table's two rows. -/
theorem refLayer_eq (h : FVec Ideal S50000x128 .f32) (tbl : IVec S2x800000 32) (Wl : FVec Ideal S128x128 .f32)
    (b : FVec Ideal S128 .f32) (Wr : FVec Ideal S128x128 .f32) :
    refLayer h tbl Wl b Wr = layer h (srcOf tbl) (dstOf tbl) Wl b Wr := by
  funext i
  obtain ⟨p, c, rfl⟩ : ∃ (p : Fin 50000) (c : Fin 128), i = ix2 p c := ⟨i 0, i 1, eq_ix2 i⟩
  rw [layer_apply, refLayer_apply]
  unfold layerAt
  exact congrArg (fun out => finish out c) (funext fun j => preR_apply h tbl Wl b Wr p j)

/-! ## The program is two such rounds -/

/-- The first round's result, as the generated stages name it, is `refLayer` of the first five arguments. -/
theorem v36_eq (x0 : FVec Ideal S50000x128 .f32) (x1 : IVec S2x800000 32) (x2 : FVec Ideal S128x128 .f32)
    (x3 : FVec Ideal S128 .f32) (x4 : FVec Ideal S128x128 .f32) :
    Read.val_main_v36 (F := Ideal) x0 x1 x2 x3 x4 = refLayer x0 x1 x2 x3 x4 := rfl

/-- The program's result is `refLayer` of the first round's result and the last three arguments. -/
theorem v69_eq (x0 : FVec Ideal S50000x128 .f32) (x1 : IVec S2x800000 32) (x2 : FVec Ideal S128x128 .f32)
    (x3 : FVec Ideal S128 .f32) (x4 x5 : FVec Ideal S128x128 .f32) (x6 : FVec Ideal S128 .f32) (x7 : FVec Ideal S128x128 .f32) :
    Read.val_main_v69 (F := Ideal) x0 x1 x2 x3 x4 x5 x6 x7 = refLayer (Read.val_main_v36 (F := Ideal) x0 x1 x2 x3 x4) x1 x5 x6 x7 := rfl

/-- The reference program's result is the specification of its eight arguments. -/
theorem ref_eq (m : (ℓ : Loc nD τ sig) → Buf (Elt Ideal) ℓ) (c : Dev nD) :
    Cert.ReferenceIdeal.Value.res_main_v69 (F := Ideal) m c
      = Cert.Sage.sage (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  refine (Read.val_main_v69_eq (F := Ideal) m c).trans ?_
  refine (v69_eq _ _ _ _ _ _ _ _).trans ?_
  refine (refLayer_eq _ _ _ _ _).trans ?_
  exact congrArg (fun z => layer z _ _ _ _ _) ((v36_eq _ _ _ _ _).trans (refLayer_eq _ _ _ _ _))

end Cert.ReferenceIdeal.RefValue

end
-- ==== Proof.lean ====
/-
  Two rounds of mean aggregation over a graph with 50000 nodes, 128 features and 800000 edges: the Pallas program
  against its jnp reference, on the extended reals.

  Both programs compute, per round and per node, the dense map of two rows — the mean of the rows the node's in-edges
  point from, and the node's own row —, divide the result by its Euclidean length floored at a small constant, and
  cut negative entries to zero. The reference gathers and sums over the edges as listed and divides the sum by the
  count. The kernel program first sorts the edges by target (a stable sort carrying the positions), looks both edge
  tables up at the sorted order, computes the count once and stores its floored reciprocal, and runs one dense kernel
  per round on blocks of 5000 rows, multiplying the sum by the stored reciprocal and adding the bias last.

  The two agree for three reasons, none of which needs the inputs to be finite: a sum over the edges that end at a
  node does not depend on the order the edges are listed in, and the sorting order is a permutation of the edges;
  the count floored at one is a nonzero real, so multiplying by its reciprocal is dividing by it; and the three
  summands of a row are added in another order, which addition on the extended reals allows. A change of float
  format is the identity on exact numbers, and the small floor is the same word on both sides.

  The kernel program's run with its result named, the result as the specification (`Cert.Sage.sage`) of the
  arguments, and the reference's result as the same specification are the modules imported below; the three frames
  are the generated ones, and the idealization's ledger is empty.
-/
import proofs.«122687_j10582799417745_2_alg».proof.Defs
import proofs.«122687_j10582799417745_2_alg».proof.Proof.Gen.Kernel
import proofs.«122687_j10582799417745_2_alg».proof.Proof.Gen.Kernel.Frame
import proofs.«122687_j10582799417745_2_alg».proof.Proof.Gen.KernelIdeal
import proofs.«122687_j10582799417745_2_alg».proof.Proof.Gen.KernelIdeal.Frame
import proofs.«122687_j10582799417745_2_alg».proof.Proof.Gen.ReferenceIdeal
import proofs.«122687_j10582799417745_2_alg».proof.Proof.Gen.ReferenceIdeal.Run
import proofs.«122687_j10582799417745_2_alg».proof.Proof.Gen.ReferenceIdeal.Read
import proofs.«122687_j10582799417745_2_alg».proof.Proof.Gen.Pre_finite_inputs
import proofs.«122687_j10582799417745_2_alg».proof.Proof.KernelValue
import proofs.«122687_j10582799417745_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at the specification of the arguments, and the arguments agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
